-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4x408 : Shape := ⟨3, ![128, 4, 408]⟩
abbrev S128x4x64x408 : Shape := ⟨4, ![128, 4, 64, 408]⟩
abbrev S408 : Shape := ⟨1, ![408]⟩
abbrev S128x3 : Shape := ⟨2, ![128, 3]⟩
abbrev S128 : Shape := ⟨1, ![128]⟩
abbrev S_ : Shape := ⟨0, ![]⟩

class Facts : Prop where
  bcast_S_S128x4x408 : S_.BroadcastsInDim S128x4x408 (![] : Fin 0 → Fin S128x4x408.rank)
  reducesTo_S128x4x408_S_d0_1_2 : S128x4x408.ReducesTo [0, 1, 2] S_
  h_S_ : 0 < S_.numel
  bcast_S_S128x4x64x408 : S_.BroadcastsInDim S128x4x64x408 (![] : Fin 0 → Fin S128x4x64x408.rank)
  reducesTo_S128x4x64x408_S_d0_1_2_3 : S128x4x64x408.ReducesTo [0, 1, 2, 3] S_
  bcast_S_S408 : S_.BroadcastsInDim S408 (![] : Fin 0 → Fin S408.rank)
  reducesTo_S408_S_d0 : S408.ReducesTo [0] S_
  bcast_S_S128x3 : S_.BroadcastsInDim S128x3 (![] : Fin 0 → Fin S128x3.rank)
  reducesTo_S128x3_S_d0_1 : S128x3.ReducesTo [0, 1] S_

variable [Facts]

def fn_part2 {F : FTy → Type} [FloatOps F] (main_arg7 : FVec F S128x3 .f32) (main_arg8 : FVec F S128x3 .f32) (main_arg9 : FVec F S128x3 .f32) (main_v33 : IVec S_ 1) : IVec S_ 1 :=
  let main_v34 : FVec F S128x3 .f32 := Host.absf main_arg7
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S128x3 .f32 := Host.absf main_arg8
  let main_cst_14 : FVec F S_ .f32 := constant S_ .f32 0x7F800000#32
  let main_v40 : FVec F S128x3 .f32 := broadcastInDim S128x3 ![] bcast_S_S128x3 main_cst_14
  let main_v41 : IVec S128x3 1 := cmpf .olt main_v39 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v38 main_v42
  let main_v44 : FVec F S128x3 .f32 := Host.absf main_arg9
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  main_v48

def fn_part1 {F : FTy → Type} [FloatOps F] (main_arg4 : FVec F S128x4x64x408 .f32) (main_arg5 : FVec F S128x4x64x408 .f32) (main_arg6 : FVec F S408 .f32) (main_arg7 : FVec F S128x3 .f32) (main_arg8 : FVec F S128x3 .f32) (main_arg9 : FVec F S128x3 .f32) (main_v13 : IVec S_ 1) (main_v16 : IVec S128x4x64x408 1) : IVec S_ 1 :=
  let main_c_5 : IVec S_ 1 := constantI S_ 1 1#1
  let main_v17 : IVec S_ 1 := (fun x v => Host.reduce IntOp.andi x v reducesTo_S128x4x64x408_S_d0_1_2_3 h_S_) main_v16 main_c_5
  let main_v18 : IVec S_ 1 := andi main_v13 main_v17
  let main_v19 : FVec F S128x4x64x408 .f32 := Host.absf main_arg4
  let main_cst_6 : FVec F S_ .f32 := constant S_ .f32 0x7F800000#32
  let main_v20 : FVec F S128x4x64x408 .f32 := broadcastInDim S128x4x64x408 ![] bcast_S_S128x4x64x408 main_cst_6
  let main_v21 : IVec S128x4x64x408 1 := cmpf .olt main_v19 main_v20
  let main_c_7 : IVec S_ 1 := constantI S_ 1 1#1
  let main_v22 : IVec S_ 1 := (fun x v => Host.reduce IntOp.andi x v reducesTo_S128x4x64x408_S_d0_1_2_3 h_S_) main_v21 main_c_7
  let main_v23 : IVec S_ 1 := andi main_v18 main_v22
  let main_v24 : FVec F S128x4x64x408 .f32 := Host.absf main_arg5
  let main_cst_8 : FVec F S_ .f32 := constant S_ .f32 0x7F800000#32
  let main_v25 : FVec F S128x4x64x408 .f32 := broadcastInDim S128x4x64x408 ![] bcast_S_S128x4x64x408 main_cst_8
  let main_v26 : IVec S128x4x64x408 1 := cmpf .olt main_v24 main_v25
  let main_c_9 : IVec S_ 1 := constantI S_ 1 1#1
  let main_v27 : IVec S_ 1 := (fun x v => Host.reduce IntOp.andi x v reducesTo_S128x4x64x408_S_d0_1_2_3 h_S_) main_v26 main_c_9
  let main_v28 : IVec S_ 1 := andi main_v23 main_v27
  let main_v29 : FVec F S408 .f32 := Host.absf main_arg6
  let main_cst_10 : FVec F S_ .f32 := constant S_ .f32 0x7F800000#32
  let main_v30 : FVec F S408 .f32 := broadcastInDim S408 ![] bcast_S_S408 main_cst_10
  let main_v31 : IVec S408 1 := cmpf .olt main_v29 main_v30
  let main_c_11 : IVec S_ 1 := constantI S_ 1 1#1
  let main_v32 : IVec S_ 1 := (fun x v => Host.reduce IntOp.andi x v reducesTo_S408_S_d0 h_S_) main_v31 main_c_11
  let main_v33 : IVec S_ 1 := andi main_v28 main_v32
  fn_part2 (F := F) main_arg7 main_arg8 main_arg9 main_v33

def fn {F : FTy → Type} [FloatOps F] (main_arg0 : FVec F S128x4x408 .f32) (main_arg1 : FVec F S128x4x408 .f32) (main_arg2 : FVec F S128x4x64x408 .f32) (main_arg3 : FVec F S128x4x64x408 .f32) (main_arg4 : FVec F S128x4x64x408 .f32) (main_arg5 : FVec F S128x4x64x408 .f32) (main_arg6 : FVec F S408 .f32) (main_arg7 : FVec F S128x3 .f32) (main_arg8 : FVec F S128x3 .f32) (main_arg9 : FVec F S128x3 .f32) (main_arg10 : IVec S128 32) : IVec S_ 1 :=
  let main_v0 : FVec F S128x4x408 .f32 := Host.absf main_arg0
  let main_cst : FVec F S_ .f32 := constant S_ .f32 0x7F800000#32
  let main_v1 : FVec F S128x4x408 .f32 := broadcastInDim S128x4x408 ![] bcast_S_S128x4x408 main_cst
  let main_v2 : IVec S128x4x408 1 := cmpf .olt main_v0 main_v1
  let main_c : IVec S_ 1 := constantI S_ 1 1#1
  let main_v3 : IVec S_ 1 := (fun x v => Host.reduce IntOp.andi x v reducesTo_S128x4x408_S_d0_1_2 h_S_) main_v2 main_c
  let main_v4 : FVec F S128x4x408 .f32 := Host.absf main_arg1
  let main_cst_0 : FVec F S_ .f32 := constant S_ .f32 0x7F800000#32
  let main_v5 : FVec F S128x4x408 .f32 := broadcastInDim S128x4x408 ![] bcast_S_S128x4x408 main_cst_0
  let main_v6 : IVec S128x4x408 1 := cmpf .olt main_v4 main_v5
  let main_c_1 : IVec S_ 1 := constantI S_ 1 1#1
  let main_v7 : IVec S_ 1 := (fun x v => Host.reduce IntOp.andi x v reducesTo_S128x4x408_S_d0_1_2 h_S_) main_v6 main_c_1
  let main_v8 : IVec S_ 1 := andi main_v3 main_v7
  let main_v9 : FVec F S128x4x64x408 .f32 := Host.absf main_arg2
  let main_cst_2 : FVec F S_ .f32 := constant S_ .f32 0x7F800000#32
  let main_v10 : FVec F S128x4x64x408 .f32 := broadcastInDim S128x4x64x408 ![] bcast_S_S128x4x64x408 main_cst_2
  let main_v11 : IVec S128x4x64x408 1 := cmpf .olt main_v9 main_v10
  let main_c_3 : IVec S_ 1 := constantI S_ 1 1#1
  let main_v12 : IVec S_ 1 := (fun x v => Host.reduce IntOp.andi x v reducesTo_S128x4x64x408_S_d0_1_2_3 h_S_) main_v11 main_c_3
  let main_v13 : IVec S_ 1 := andi main_v8 main_v12
  let main_v14 : FVec F S128x4x64x408 .f32 := Host.absf main_arg3
  let main_cst_4 : FVec F S_ .f32 := constant S_ .f32 0x7F800000#32
  let main_v15 : FVec F S128x4x64x408 .f32 := broadcastInDim S128x4x64x408 ![] bcast_S_S128x4x64x408 main_cst_4
  let main_v16 : IVec S128x4x64x408 1 := cmpf .olt main_v14 main_v15
  fn_part1 (F := F) main_arg4 main_arg5 main_arg6 main_arg7 main_arg8 main_arg9 main_v13 main_v16
-- ==== Kernel.lean ====
abbrev S128x4x408 : Shape := ⟨3, ![128, 4, 408]⟩
abbrev S128x4x64x408 : Shape := ⟨4, ![128, 4, 64, 408]⟩
abbrev S408 : Shape := ⟨1, ![408]⟩
abbrev S128x3 : Shape := ⟨2, ![128, 3]⟩
abbrev S128 : Shape := ⟨1, ![128]⟩
abbrev S16x128 : Shape := ⟨2, ![16, 128]⟩
abbrev S4x4x408 : Shape := ⟨3, ![4, 4, 408]⟩
abbrev S4x4x64x408 : Shape := ⟨4, ![4, 4, 64, 408]⟩
abbrev S8x128 : Shape := ⟨2, ![8, 128]⟩
abbrev S1x1 : Shape := ⟨2, ![1, 1]⟩
abbrev S4x4x1x408 : Shape := ⟨4, ![4, 4, 1, 408]⟩
abbrev S1x1x1x408 : Shape := ⟨4, ![1, 1, 1, 408]⟩
abbrev S4x64x408 : Shape := ⟨3, ![4, 64, 408]⟩
abbrev S64x408 : Shape := ⟨2, ![64, 408]⟩
abbrev S64 : Shape := ⟨1, ![64]⟩
abbrev S64x1 : Shape := ⟨2, ![64, 1]⟩
abbrev S1 : Shape := ⟨1, ![1]⟩
abbrev S4x408 : Shape := ⟨2, ![4, 408]⟩
abbrev S4 : Shape := ⟨1, ![4]⟩
abbrev S4x1 : Shape := ⟨2, ![4, 1]⟩
abbrev S_ : Shape := ⟨0, ![]⟩

abbrev nBuf : Space → Nat
  | .hbm => 17
  | .vmem => 18
  | .smem => 0
  | _ => 0

abbrev bufTy : (tb : Table) → Fin (tcTables nBuf tb) → BufTy
  | .hbm, ⟨0, _⟩ => ⟨S128x4x408, .f32⟩
  | .hbm, ⟨1, _⟩ => ⟨S128x4x408, .f32⟩
  | .hbm, ⟨2, _⟩ => ⟨S128x4x64x408, .f32⟩
  | .hbm, ⟨3, _⟩ => ⟨S128x4x64x408, .f32⟩
  | .hbm, ⟨4, _⟩ => ⟨S128x4x64x408, .f32⟩
  | .hbm, ⟨5, _⟩ => ⟨S128x4x64x408, .f32⟩
  | .hbm, ⟨6, _⟩ => ⟨S408, .f32⟩
  | .hbm, ⟨7, _⟩ => ⟨S128x3, .f32⟩
  | .hbm, ⟨8, _⟩ => ⟨S128x3, .f32⟩
  | .hbm, ⟨9, _⟩ => ⟨S128x3, .f32⟩
  | .hbm, ⟨10, _⟩ => ⟨S128, .i32⟩
  | .hbm, ⟨11, _⟩ => ⟨S16x128, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .local _ .vmem, ⟨0, _⟩ => ⟨S4x4x408, .f32⟩
  | .local _ .vmem, ⟨1, _⟩ => ⟨S4x4x408, .f32⟩
  | .local _ .vmem, ⟨2, _⟩ => ⟨S4x4x408, .f32⟩
  | .local _ .vmem, ⟨3, _⟩ => ⟨S4x4x408, .f32⟩
  | .local _ .vmem, ⟨4, _⟩ => ⟨S4x4x64x408, .f32⟩
  | .local _ .vmem, ⟨5, _⟩ => ⟨S4x4x64x408, .f32⟩
  | .local _ .vmem, ⟨6, _⟩ => ⟨S4x4x64x408, .f32⟩
  | .local _ .vmem, ⟨7, _⟩ => ⟨S4x4x64x408, .f32⟩
  | .local _ .vmem, ⟨8, _⟩ => ⟨S4x4x64x408, .f32⟩
  | .local _ .vmem, ⟨9, _⟩ => ⟨S4x4x64x408, .f32⟩
  | .local _ .vmem, ⟨10, _⟩ => ⟨S4x4x64x408, .f32⟩
  | .local _ .vmem, ⟨11, _⟩ => ⟨S4x4x64x408, .f32⟩
  | .local _ .vmem, ⟨12, _⟩ => ⟨S408, .f32⟩
  | .local _ .vmem, ⟨13, _⟩ => ⟨S8x128, .f32⟩
  | .local _ .vmem, ⟨14, _⟩ => ⟨S8x128, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | _, _ => ⟨S128x4x408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v80 : BitVec 1 := Scalar.cmpi .eq arg1 c15_i32
  let v81 : BitVec 32 := Scalar.extui v80
  let c0_i32_49 : BitVec 32 := 0#32
  let v82 : BitVec 1 := Scalar.cmpi .ne v81 c0_i32_49
  v82

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x4x408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4x408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x4x64x408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x4x64x408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x4x64x408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x4x64x408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x4x408_S4x4x408_0_0_0 : ∀ a, (![0, 0, 0] : Fin 3 → Nat) a + S4x4x408.size a ≤ S4x4x408.size a
  h_S4x4x408 : 0 < S4x4x408.numel
  inb_S4x4x64x408_S4x4x64x408_0_0_0_0 : ∀ a, (![0, 0, 0, 0] : Fin 4 → Nat) a + S4x4x64x408.size a ≤ S4x4x64x408.size a
  h_S4x4x64x408 : 0 < S4x4x64x408.numel
  inb_S408_S408_0 : ∀ a, (![0] : Fin 1 → Nat) a + S408.size a ≤ S408.size a
  h_S408 : 0 < S408.numel
  shapeCasts_S4x4x408_S4x4x1x408 : S4x4x408.ShapeCasts S4x4x1x408
  broadcasts_S4x4x1x408_S4x4x64x408 : S4x4x1x408.Broadcasts S4x4x64x408
  shapeCasts_S408_S1x1x1x408 : S408.ShapeCasts S1x1x1x408
  broadcasts_S1x1x1x408_S4x4x64x408 : S1x1x1x408.Broadcasts S4x4x64x408
  reduces_S4x4x64x408_S4x64x408 : S4x4x64x408.Reduces [0] S4x64x408
  reduces_S4x64x408_S64x408 : S4x64x408.Reduces [0] S64x408
  reduces_S64x408_S64 : S64x408.Reduces [1] S64
  shapeCasts_S64_S64x1 : S64.ShapeCasts S64x1
  reduces_S64x1_S1 : S64x1.Reduces [0] S1
  shapeCasts_S1_S1x1 : S1.ShapeCasts S1x1
  reduces_S4x4x408_S4x408 : S4x4x408.Reduces [0] S4x408
  reduces_S4x408_S4 : S4x408.Reduces [1] S4
  shapeCasts_S4_S4x1 : S4.ShapeCasts S4x1
  reduces_S4x1_S1 : S4x1.Reduces [0] S1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4x408.size a ≤ S128x4x408.size a
  hwx0_0 : ∀ i : grid0.Coords, EltTy.bits .f32 = 32 ∨ (Rect.block (s := S128x4x408) S4x4x408.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4x408.size a ≤ S128x4x408.size a
  hwx0_1 : ∀ i : grid0.Coords, EltTy.bits .f32 = 32 ∨ (Rect.block (s := S128x4x408) S4x4x408.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4x64x408.size a ≤ S128x4x64x408.size a
  hwx0_2 : ∀ i : grid0.Coords, EltTy.bits .f32 = 32 ∨ (Rect.block (s := S128x4x64x408) S4x4x64x408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x4x64x408.size a ≤ S128x4x64x408.size a
  hwx0_3 : ∀ i : grid0.Coords, EltTy.bits .f32 = 32 ∨ (Rect.block (s := S128x4x64x408) S4x4x64x408.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x4x64x408.size a ≤ S128x4x64x408.size a
  hwx0_4 : ∀ i : grid0.Coords, EltTy.bits .f32 = 32 ∨ (Rect.block (s := S128x4x64x408) S4x4x64x408.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x4x64x408.size a ≤ S128x4x64x408.size a
  hwx0_5 : ∀ i : grid0.Coords, EltTy.bits .f32 = 32 ∨ (Rect.block (s := S128x4x64x408) S4x4x64x408.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S408.size a ≤ S408.size a
  hwx0_6 : ∀ i : grid0.Coords, EltTy.bits .f32 = 32 ∨ (Rect.block (s := S408) S408.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)

variable [Facts₀]

abbrev win0_0 : Pipeline.Window sig grid0 :=
  Pipeline.Window.ofSpec (Memref.whole main_arg0) S4x4x408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4x408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x4x64x408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x4x64x408.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x4x64x408.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x4x64x408.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S408.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S128x4x408 : Shape := ⟨3, ![128, 4, 408]⟩
abbrev S128x4x64x408 : Shape := ⟨4, ![128, 4, 64, 408]⟩
abbrev S408 : Shape := ⟨1, ![408]⟩
abbrev S128x3 : Shape := ⟨2, ![128, 3]⟩
abbrev S128 : Shape := ⟨1, ![128]⟩
abbrev S128x4x1x408 : Shape := ⟨4, ![128, 4, 1, 408]⟩
abbrev S1x1x1x408 : Shape := ⟨4, ![1, 1, 1, 408]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S128x4x408, .f32⟩
  | .hbm, ⟨1, _⟩ => ⟨S128x4x408, .f32⟩
  | .hbm, ⟨2, _⟩ => ⟨S128x4x64x408, .f32⟩
  | .hbm, ⟨3, _⟩ => ⟨S128x4x64x408, .f32⟩
  | .hbm, ⟨4, _⟩ => ⟨S128x4x64x408, .f32⟩
  | .hbm, ⟨5, _⟩ => ⟨S128x4x64x408, .f32⟩
  | .hbm, ⟨6, _⟩ => ⟨S408, .f32⟩
  | .hbm, ⟨7, _⟩ => ⟨S128x3, .f32⟩
  | .hbm, ⟨8, _⟩ => ⟨S128x3, .f32⟩
  | .hbm, ⟨9, _⟩ => ⟨S128x3, .f32⟩
  | .hbm, ⟨10, _⟩ => ⟨S128, .i32⟩
  | .hbm, ⟨11, _⟩ => ⟨S128x4x1x408, .f32⟩
  | .hbm, ⟨12, _⟩ => ⟨S128x4x1x408, .f32⟩
  | .hbm, ⟨13, _⟩ => ⟨S128x4x64x408, .f32⟩
  | .hbm, ⟨14, _⟩ => ⟨S128x4x64x408, .f32⟩
  | .hbm, ⟨15, _⟩ => ⟨S128x4x64x408, .f32⟩
  | .hbm, ⟨16, _⟩ => ⟨S128x4x64x408, .f32⟩
  | .hbm, ⟨17, _⟩ => ⟨S128x4x64x408, .f32⟩
  | .hbm, ⟨18, _⟩ => ⟨S128x4x64x408, .f32⟩
  | .hbm, ⟨19, _⟩ => ⟨S128x4x64x408, .f32⟩
  | .hbm, ⟨20, _⟩ => ⟨S128x4x64x408, .f32⟩
  | .hbm, ⟨21, _⟩ => ⟨S128x4x64x408, .f32⟩
  | .hbm, ⟨22, _⟩ => ⟨S128x4x64x408, .f32⟩
  | .hbm, ⟨23, _⟩ => ⟨S128x4x64x408, .f32⟩
  | .hbm, ⟨24, _⟩ => ⟨S128x4x64x408, .f32⟩
  | .hbm, ⟨25, _⟩ => ⟨S128x4x64x408, .f32⟩
  | .hbm, ⟨26, _⟩ => ⟨S128x4x64x408, .f32⟩
  | .hbm, ⟨27, _⟩ => ⟨S128x4x64x408, .f32⟩
  | .hbm, ⟨28, _⟩ => ⟨S1x1x1x408, .f32⟩
  | .hbm, ⟨29, _⟩ => ⟨S128x4x64x408, .f32⟩
  | .hbm, ⟨30, _⟩ => ⟨S128x4x64x408, .f32⟩
  | .hbm, ⟨31, _⟩ => ⟨S_, .f32⟩
  | .hbm, ⟨32, _⟩ => ⟨S_, .f32⟩
  | .hbm, ⟨33, _⟩ => ⟨S128x4x408, .f32⟩
  | .hbm, ⟨34, _⟩ => ⟨S128x4x408, .f32⟩
  | .hbm, ⟨35, _⟩ => ⟨S128x4x408, .f32⟩
  | .hbm, ⟨36, _⟩ => ⟨S128x4x408, .f32⟩
  | .hbm, ⟨37, _⟩ => ⟨S128x4x64x408, .f32⟩
  | .hbm, ⟨38, _⟩ => ⟨S128x4x64x408, .f32⟩
  | .hbm, ⟨39, _⟩ => ⟨S128x4x64x408, .f32⟩
  | .hbm, ⟨40, _⟩ => ⟨S128x4x64x408, .f32⟩
  | .hbm, ⟨41, _⟩ => ⟨S_, .f32⟩
  | .hbm, ⟨42, _⟩ => ⟨S128x4x408, .f32⟩
  | .hbm, ⟨43, _⟩ => ⟨S128x4x408, .f32⟩
  | .hbm, ⟨44, _⟩ => ⟨S_, .f32⟩
  | .hbm, ⟨45, _⟩ => ⟨S128x4x408, .f32⟩
  | .hbm, ⟨46, _⟩ => ⟨S128x4x408, .f32⟩
  | .hbm, ⟨47, _⟩ => ⟨S128x4x408, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S128x4x64x408, .f32⟩
  | .hbm, ⟨54, _⟩ => ⟨S128x4x64x408, .f32⟩
  | .hbm, ⟨55, _⟩ => ⟨S_, .f32⟩
  | .hbm, ⟨56, _⟩ => ⟨S128x4x64x408, .f32⟩
  | .hbm, ⟨57, _⟩ => ⟨S128x4x64x408, .f32⟩
  | .hbm, ⟨58, _⟩ => ⟨S128x4x64x408, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S128x4x408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  bcast_S128x4x408_S128x4x1x408_0_1_3 : S128x4x408.BroadcastsInDim S128x4x1x408 (![0, 1, 3] : Fin 3 → Fin S128x4x1x408.rank)
  bcast_S128x4x1x408_S128x4x64x408_0_1_2_3 : S128x4x1x408.BroadcastsInDim S128x4x64x408 (![0, 1, 2, 3] : Fin 4 → Fin S128x4x64x408.rank)
  bcast_S408_S1x1x1x408_3 : S408.BroadcastsInDim S1x1x1x408 (![3] : Fin 1 → Fin S1x1x1x408.rank)
  bcast_S1x1x1x408_S128x4x64x408_0_1_2_3 : S1x1x1x408.BroadcastsInDim S128x4x64x408 (![0, 1, 2, 3] : Fin 4 → Fin S128x4x64x408.rank)
  reducesTo_S128x4x64x408_S_d0_1_2_3 : S128x4x64x408.ReducesTo [0, 1, 2, 3] S_
  h_S_ : 0 < S_.numel
  bcast_S_S128x4x408 : S_.BroadcastsInDim S128x4x408 (![] : Fin 0 → Fin S128x4x408.rank)
  reducesTo_S128x4x408_S_d0_1_2 : S128x4x408.ReducesTo [0, 1, 2] S_
  bcast_S_S128x4x64x408 : S_.BroadcastsInDim S128x4x64x408 (![] : Fin 0 → Fin S128x4x64x408.rank)

variable [Facts₀]

class Facts : Prop extends Facts₀ where

variable [Facts]
-- ==== Proof.Pieces.lean ====
import proofs.«123063_j88373247082702_2_alg».proof.Proof.Gen.KernelIdeal.Frame
import Idealize.ShloMosaic.Lib.Pipeline.Value
import Idealize.ShloMosaic.Lib.Tactic

/-!
# What one grid point leaves in the three accumulators and in the output block

The body keeps three one-cell accumulators across the points of a core: the weighted squared error, the
attenuation regulariser and the radiation regulariser. At every point each accumulator ends at its previous
contents plus the point's tile sum; at a core's first point the previous contents are the zero just stored there;
at a core's last point the output block is, in addition, filled with the core's partial total computed from the
three accumulators as just updated. The lemmas below say this case by case, in terms of the body's own payloads
(the tile sums `k0_pay7` … `k0_pay10`, the updates `k0_pay1`, `k0_pay2`, `k0_pay10`, the partial total
`k0_pay3`, the zeros `k0_pay4` … `k0_pay6`), for any float instance.
-/

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body is of a whole buffer: its offsets are all zero. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## A middle point: each accumulator is updated from what the point before left -/

theorem sB0 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 xs1 xs2 : Vec F S1x1 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay10 (k0_pay7 x0 x1 x2 x3 x4 x5 x6) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

theorem sB1 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 xs1 xs2 : Vec F S1x1 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay8 x0 x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

theorem sB2 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 xs1 xs2 : Vec F S1x1 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay2 (k0_pay9 x2 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

/-! ## A core's last point: the same updates, and the output block at the partial total of the updated accumulators -/

theorem sC0 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 xs1 xs2 : Vec F S1x1 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay10 (k0_pay7 x0 x1 x2 x3 x4 x5 x6) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

theorem sC1 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 xs1 xs2 : Vec F S1x1 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay8 x0 x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

theorem sC2 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 xs1 xs2 : Vec F S1x1 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay2 (k0_pay9 x2 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

theorem oC7 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 xs1 xs2 : Vec F S1x1 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2
      = k0_pay3 (k0_pay1 (k0_pay8 x0 x1) xs1) (k0_pay2 (k0_pay9 x2 x3) xs2) (k0_pay10 (k0_pay7 x0 x1 x2 x3 x4 x5 x6) xs0) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz2]
  simp only [View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

/-! ## A core's first point: each accumulator is updated from the zero just stored in it -/

theorem sA0 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay10 (k0_pay7 x0 x1 x2 x3 x4 x5 x6) k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

theorem sA1 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay1 (k0_pay8 x0 x1) k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

theorem sA2 (c : Dev nD) (i : grid0.Coords) (arg2 : Memref sig .tc .vmem S4x4x408 .f32) (harg2 : arg2.IsWhole) (arg3 : Memref sig .tc .vmem S4x4x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S4x4x64x408 .f32) (harg7 : arg7.IsWhole) (arg8 : Memref sig .tc .vmem S408 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay2 (k0_pay9 x2 x3) k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread, harg11.read_unread, harg12.read_unread,
    View.ld_unit_zero (S := S1x1) hz2, View.ld_unit_zero (S := S4x4x408) hz3, View.ld_unit_zero (S := S4x4x64x408) hz4,
    View.ld_unit_zero (S := S408) hz1, View.ld_unit_zero (S := S8x128) hz2]

end Cert.KernelIdeal.Pieces

end
-- ==== Proof.ScalarLaw.lean ====
import Mathlib.Data.EReal.Operations
import Mathlib.Data.EReal.Inv

/-!
# The scalar law that joins two partial totals

Each half of the batch contributes a total `r + c * (a * ka + d * kd)`: `r` its share of the weighted squared error,
`a` and `d` its shares of the two regularisers (sums of squares, so nonnegative), `ka`, `kd` the reciprocals of the
global element counts, `c` the regulariser's weight. The whole batch's total is the same expression of the summed
shares. Over the extended reals this needs no finiteness: multiplication distributes over a sum of nonnegative
terms, and the rest is commutativity and associativity of addition.
-/

namespace Cert.ScalarLaw

/-- Two partial totals add up to the total of the summed shares, when the regularisers' shares and the two
    reciprocal counts are nonnegative. -/
theorem totals_add (r0 r1 a0 a1 d0 d1 c ka kd : EReal) (ha0 : 0 ≤ a0) (ha1 : 0 ≤ a1) (hd0 : 0 ≤ d0) (hd1 : 0 ≤ d1)
    (hka : 0 ≤ ka) (hkd : 0 ≤ kd) :
    (r0 + c * (a0 * ka + d0 * kd)) + (r1 + c * (a1 * ka + d1 * kd))
      = (r0 + r1) + c * ((a0 + a1) * ka + (d0 + d1) * kd) := by
  have e0 : 0 ≤ a0 * ka + d0 * kd := add_nonneg (mul_nonneg ha0 hka) (mul_nonneg hd0 hkd)
  have e1 : 0 ≤ a1 * ka + d1 * kd := add_nonneg (mul_nonneg ha1 hka) (mul_nonneg hd1 hkd)
  rw [EReal.right_distrib_of_nonneg ha0 ha1, EReal.right_distrib_of_nonneg hd0 hd1,
    add_add_add_comm (a0 * ka) (a1 * ka) (d0 * kd) (d1 * kd), EReal.left_distrib_of_nonneg e0 e1,
    add_add_add_comm r0 r1]

end Cert.ScalarLaw
-- ==== Proof.Consts.lean ====
import Idealize.ShloMosaic.PureOps.Ideal

/-!
# The two element counts, as extended reals

The regularisers are means: their sums are divided by the number of attenuation entries, 128 * 4 * 408 = 208896,
and by the number of radiation entries, 128 * 4 * 64 * 408 = 13369344. Both are below 2^24, so the f32 words that
spell them denote exactly these integers. Only two facts about them are used downstream: neither is zero, and both
are nonnegative.
-/

noncomputable section

namespace Cert.Consts

open Idealize.ShloMosaic

/-- The word `0x484C0000` denotes the real 208896 = 128 * 4 * 408. -/
theorem attCount_eq : Ideal.ofBits .f32 0x484C0000#32 = ((208896 : ℝ) : EReal) := by
  simp [Ideal.ofBits, Ideal.ieee, -EReal.coe_mul]; norm_num

/-- The word `0x4B4C0000` denotes the real 13369344 = 128 * 4 * 64 * 408. -/
theorem radCount_eq : Ideal.ofBits .f32 0x4B4C0000#32 = ((13369344 : ℝ) : EReal) := by
  simp [Ideal.ofBits, Ideal.ieee, -EReal.coe_mul]

theorem attCount_ne_zero : Ideal.ofBits .f32 0x484C0000#32 ≠ 0 := by
  rw [attCount_eq]; exact_mod_cast (by norm_num : (208896 : ℝ) ≠ 0)

theorem radCount_ne_zero : Ideal.ofBits .f32 0x4B4C0000#32 ≠ 0 := by
  rw [radCount_eq]; exact_mod_cast (by norm_num : (13369344 : ℝ) ≠ 0)

theorem attCount_nonneg : (0 : EReal) ≤ Ideal.ofBits .f32 0x484C0000#32 := by
  rw [attCount_eq]; exact_mod_cast (by norm_num : (0 : ℝ) ≤ 208896)

theorem radCount_nonneg : (0 : EReal) ≤ Ideal.ofBits .f32 0x4B4C0000#32 := by
  rw [radCount_eq]; exact_mod_cast (by norm_num : (0 : ℝ) ≤ 13369344)

end Cert.Consts

end
-- ==== Proof.LibBlockSum.lean ====
/-
  A sum over `Fin (B * R)` read block by block: the index `i` is `b * R + r` for exactly one block `b : Fin B`
  and one offset `r : Fin R`, so summing the blocks' sums is summing everything.  Stated in any commutative
  additive monoid (the extended reals are one: no finiteness is needed to regroup a sum).
-/
import Mathlib.Algebra.BigOperators.Fin
import Mathlib.Logic.Equiv.Fin.Basic

namespace Cert.Lib

/-- `∑ b, ∑ r, g (b * R + r) = ∑ i, g i` over `Fin (B * R)`, the index built by `finProdFinEquiv`
    (whose value is `r + R * b`). -/
theorem sum_blocks {M : Type*} [AddCommMonoid M] (B R : ℕ) (g : Fin (B * R) → M) :
    ∑ b : Fin B, ∑ r : Fin R, g (finProdFinEquiv (b, r)) = ∑ i : Fin (B * R), g i := by
  rw [← Fintype.sum_prod_type' (f := fun b r => g (finProdFinEquiv (b, r)))]
  exact Equiv.sum_comp finProdFinEquiv g

/-- The same with the block's entry named by its value: any `idx b r` whose value is `b * R + r`. -/
theorem sum_blocks_val {M : Type*} [AddCommMonoid M] (B R : ℕ) (g : Fin (B * R) → M)
    (idx : Fin B → Fin R → Fin (B * R)) (hidx : ∀ b r, (idx b r).val = b.val * R + r.val) :
    ∑ b : Fin B, ∑ r : Fin R, g (idx b r) = ∑ i : Fin (B * R), g i := by
  rw [← sum_blocks B R g]
  refine Finset.sum_congr rfl fun b _ => Finset.sum_congr rfl fun r _ => congrArg g (Fin.ext ?_)
  rw [hidx]; simp [finProdFinEquiv, Nat.mul_comm, Nat.add_comm]

/-- The same over `Fin N` with `N = B * R` given as an equation (so that `N` may be a literal). -/
theorem sum_blocks_of_eq {M : Type*} [AddCommMonoid M] {B R N : ℕ} (hN : B * R = N) (g : Fin N → M)
    (idx : Fin B → Fin R → Fin N) (hidx : ∀ b r, (idx b r).val = b.val * R + r.val) :
    ∑ b : Fin B, ∑ r : Fin R, g (idx b r) = ∑ i : Fin N, g i := by
  subst hN
  exact sum_blocks_val B R g idx hidx

end Cert.Lib
-- ==== Proof.Spec.lean ====
import Idealize.ShloMosaic.PureOps.Ideal
import Idealize.ShloMosaic.PureOps.Ideal.Laws
import Idealize.ShloMosaic.Lib.ValueIdx
import proofs.«123063_j88373247082702_2_alg».proof.Proof.ScalarLaw
import proofs.«123063_j88373247082702_2_alg».proof.Proof.Consts
import proofs.«123063_j88373247082702_2_alg».proof.Proof.LibBlockSum

/-!
# The loss, as one extended real of the argument arrays

For an attenuation `a = ar + i·ai` over (batch, user, subcarrier), a radiation `p = rr + i·ri` and a target
`t = tr + i·ti` over (batch, user, antenna, subcarrier), and subcarrier weights `w`:

* `err b u n s = |a·p − t|² · w s`, real and imaginary parts squared separately;
* `attPen b u s = max(√(ar² + ai²) − 1, 0)²` and `radPen b u n s = max(√(rr² + ri²) − 10, 0)²`;
* the loss is `Σ err + c · (Σ attPen / N_att + Σ radPen / N_rad)`.

Every sum is split by batch row: a row's sum first (`errRow`, `attRow`, `radRow`), then the sum over rows. The batch
is processed in two halves of 64 rows, each half in 16 tiles of 4 rows; a half's partial total (`coreTotal`) has the
same form as the loss with the half's sums in place of the whole sums. The two partial totals add up to the loss
(`coreTotal_add`): the rows of the 32 tiles are the 128 rows, each once, and the regularisers, being sums of
squares, are nonnegative, which is what lets the weight and the reciprocal counts distribute over the two halves
on the extended reals, infinities included.
-/

noncomputable section

open scoped BigOperators

namespace Cert.Spec

open Idealize.ShloMosaic Idealize.ShloMosaic.ValueIdx

/-- Arrays over (batch, user, subcarrier), over (batch, user, antenna, subcarrier), and over subcarriers; the batch
    extent is a parameter, so that the same definitions read a 4-row tile and the whole 128-row array. -/
abbrev Att (B : ℕ) := (⟨3, ![B, 4, 408]⟩ : Shape).Idx → EReal
abbrev Rad (B : ℕ) := (⟨4, ![B, 4, 64, 408]⟩ : Shape).Idx → EReal
abbrev Wts := (⟨1, ![408]⟩ : Shape).Idx → EReal

/-- The float words the two programs share: 0, 1, 10, the two element counts and the regulariser's weight. -/
abbrev zero : EReal := Ideal.ofBits .f32 0x00000000#32
abbrev one : EReal := Ideal.ofBits .f32 0x3F800000#32
abbrev ten : EReal := Ideal.ofBits .f32 0x41200000#32
abbrev attCount : EReal := Ideal.ofBits .f32 0x484C0000#32
abbrev radCount : EReal := Ideal.ofBits .f32 0x4B4C0000#32
abbrev emWeight : EReal := Ideal.ofBits .f32 0x3C23D70A#32

theorem zero_eq : zero = 0 := Ideal.ofBits_zero_f32

/-! ## One entry -/

/-- The weighted squared error of the predicted signal `a·p` against the target at one entry. -/
def err {B : ℕ} (ar ai : Att B) (rr ri tr ti : Rad B) (w : Wts) (b : Fin B) (u : Fin 4) (n : Fin 64) (s : Fin 408) : EReal :=
  (((ar (ix3 b u s) * rr (ix4 b u n s) - ai (ix3 b u s) * ri (ix4 b u n s)) - tr (ix4 b u n s))
      * ((ar (ix3 b u s) * rr (ix4 b u n s) - ai (ix3 b u s) * ri (ix4 b u n s)) - tr (ix4 b u n s))
    + ((ar (ix3 b u s) * ri (ix4 b u n s) + ai (ix3 b u s) * rr (ix4 b u n s)) - ti (ix4 b u n s))
      * ((ar (ix3 b u s) * ri (ix4 b u n s) + ai (ix3 b u s) * rr (ix4 b u n s)) - ti (ix4 b u n s)))
    * w (ix1 s)

/-- The squared excess of the attenuation's magnitude over 1. -/
def attPen {B : ℕ} (ar ai : Att B) (b : Fin B) (u : Fin 4) (s : Fin 408) : EReal :=
  max (Ideal.sqrt (ar (ix3 b u s) * ar (ix3 b u s) + ai (ix3 b u s) * ai (ix3 b u s)) - one) zero
    * max (Ideal.sqrt (ar (ix3 b u s) * ar (ix3 b u s) + ai (ix3 b u s) * ai (ix3 b u s)) - one) zero

/-- The squared excess of the radiation's magnitude over 10. -/
def radPen {B : ℕ} (rr ri : Rad B) (b : Fin B) (u : Fin 4) (n : Fin 64) (s : Fin 408) : EReal :=
  max (Ideal.sqrt (rr (ix4 b u n s) * rr (ix4 b u n s) + ri (ix4 b u n s) * ri (ix4 b u n s)) - ten) zero
    * max (Ideal.sqrt (rr (ix4 b u n s) * rr (ix4 b u n s) + ri (ix4 b u n s) * ri (ix4 b u n s)) - ten) zero

theorem sq_max_zero_nonneg (x : EReal) : 0 ≤ max x zero * max x zero := by
  have h : (0 : EReal) ≤ max x zero := by rw [zero_eq]; exact le_max_right _ _
  exact mul_nonneg h h

theorem attPen_nonneg {B : ℕ} (ar ai : Att B) (b : Fin B) (u : Fin 4) (s : Fin 408) : 0 ≤ attPen ar ai b u s :=
  sq_max_zero_nonneg _

theorem radPen_nonneg {B : ℕ} (rr ri : Rad B) (b : Fin B) (u : Fin 4) (n : Fin 64) (s : Fin 408) : 0 ≤ radPen rr ri b u n s :=
  sq_max_zero_nonneg _

/-! ## A tile of 4 rows read out of the whole arrays

If a tile's arrays hold rows `4t … 4t+3` of the whole arrays, each entry-wise quantity of the tile at row `b'` is
that of the whole arrays at row `4t + b'`. -/

theorem err_tile {ar ai : Att 128} {rr ri tr ti : Rad 128} {w : Wts} {x0 x1 : Att 4} {x2 x3 x4 x5 : Rad 4} {x6 : Wts}
    (row : Fin 4 → Fin 128)
    (h0 : ∀ b' u s, x0 (ix3 b' u s) = ar (ix3 (row b') u s)) (h1 : ∀ b' u s, x1 (ix3 b' u s) = ai (ix3 (row b') u s))
    (h2 : ∀ b' u n s, x2 (ix4 b' u n s) = rr (ix4 (row b') u n s)) (h3 : ∀ b' u n s, x3 (ix4 b' u n s) = ri (ix4 (row b') u n s))
    (h4 : ∀ b' u n s, x4 (ix4 b' u n s) = tr (ix4 (row b') u n s)) (h5 : ∀ b' u n s, x5 (ix4 b' u n s) = ti (ix4 (row b') u n s))
    (h6 : x6 = w) (b' : Fin 4) (u : Fin 4) (n : Fin 64) (s : Fin 408) :
    err x0 x1 x2 x3 x4 x5 x6 b' u n s = err ar ai rr ri tr ti w (row b') u n s := by
  unfold err; rw [h0, h1, h2, h3, h4, h5, h6]

theorem attPen_tile {ar ai : Att 128} {x0 x1 : Att 4} (row : Fin 4 → Fin 128)
    (h0 : ∀ b' u s, x0 (ix3 b' u s) = ar (ix3 (row b') u s)) (h1 : ∀ b' u s, x1 (ix3 b' u s) = ai (ix3 (row b') u s))
    (b' : Fin 4) (u : Fin 4) (s : Fin 408) : attPen x0 x1 b' u s = attPen ar ai (row b') u s := by
  unfold attPen; rw [h0, h1]

theorem radPen_tile {rr ri : Rad 128} {x2 x3 : Rad 4} (row : Fin 4 → Fin 128)
    (h2 : ∀ b' u n s, x2 (ix4 b' u n s) = rr (ix4 (row b') u n s)) (h3 : ∀ b' u n s, x3 (ix4 b' u n s) = ri (ix4 (row b') u n s))
    (b' : Fin 4) (u : Fin 4) (n : Fin 64) (s : Fin 408) : radPen x2 x3 b' u n s = radPen rr ri (row b') u n s := by
  unfold radPen; rw [h2, h3]

/-! ## One batch row -/

def errRow (ar ai : Att 128) (rr ri tr ti : Rad 128) (w : Wts) (b : Fin 128) : EReal :=
  ∑ n : Fin 64, ∑ s : Fin 408, ∑ u : Fin 4, err ar ai rr ri tr ti w b u n s

def attRow (ar ai : Att 128) (b : Fin 128) : EReal := ∑ u : Fin 4, ∑ s : Fin 408, attPen ar ai b u s

def radRow (rr ri : Rad 128) (b : Fin 128) : EReal := ∑ n : Fin 64, ∑ s : Fin 408, ∑ u : Fin 4, radPen rr ri b u n s

theorem attRow_nonneg (ar ai : Att 128) (b : Fin 128) : 0 ≤ attRow ar ai b :=
  Finset.sum_nonneg fun u _ => Finset.sum_nonneg fun s _ => attPen_nonneg ar ai b u s

theorem radRow_nonneg (rr ri : Rad 128) (b : Fin 128) : 0 ≤ radRow rr ri b :=
  Finset.sum_nonneg fun n _ => Finset.sum_nonneg fun s _ => Finset.sum_nonneg fun u _ => radPen_nonneg rr ri b u n s

/-! ## Tiles of 4 rows, halves of 16 tiles -/

/-- A row quantity read at any natural number: zero past the last row. -/
def ext (ρ : Fin 128 → EReal) (n : ℕ) : EReal := if h : n < 128 then ρ ⟨n, h⟩ else 0

/-- The sum over the 4 rows of tile `t`. -/
def tileSum (ρ : Fin 128 → EReal) (t : ℕ) : EReal := ∑ b' : Fin 4, ext ρ (4 * t + b'.val)

/-- The sum over the 16 tiles of half `q`. -/
def coreSum (ρ : Fin 128 → EReal) (q : ℕ) : EReal := ∑ s ∈ Finset.range 16, tileSum ρ (16 * q + s)

theorem ext_nonneg {ρ : Fin 128 → EReal} (hρ : ∀ b, 0 ≤ ρ b) (n : ℕ) : 0 ≤ ext ρ n := by
  unfold ext; split
  · exact hρ _
  · exact le_refl _

theorem coreSum_nonneg {ρ : Fin 128 → EReal} (hρ : ∀ b, 0 ≤ ρ b) (q : ℕ) : 0 ≤ coreSum ρ q :=
  Finset.sum_nonneg fun _ _ => Finset.sum_nonneg fun _ _ => ext_nonneg hρ _

/-- A half's 16 tiles of 4 rows are its 64 rows. -/
theorem coreSum_eq (ρ : Fin 128 → EReal) (q : ℕ) : coreSum ρ q = ∑ i : Fin 64, ext ρ (64 * q + i.val) := by
  unfold coreSum tileSum
  rw [Finset.sum_range]
  rw [← Cert.Lib.sum_blocks_of_eq (B := 16) (R := 4) (N := 64) rfl (fun i : Fin 64 => ext ρ (64 * q + i.val))
      (fun s b' => ⟨s.val * 4 + b'.val, by have := s.isLt; have := b'.isLt; omega⟩) (fun _ _ => rfl)]
  refine Finset.sum_congr rfl fun s _ => Finset.sum_congr rfl fun b' _ => ?_
  show ext ρ (4 * (16 * q + s.val) + b'.val) = ext ρ (64 * q + (s.val * 4 + b'.val))
  exact congrArg (ext ρ) (by omega)

/-- The two halves' 64 rows are the 128 rows. -/
theorem coreSum_add (ρ : Fin 128 → EReal) : coreSum ρ 0 + coreSum ρ 1 = ∑ b, ρ b := by
  rw [coreSum_eq, coreSum_eq]
  rw [show (∑ b : Fin 128, ρ b) = ∑ b : Fin (64 + 64), ρ b from rfl, Fin.sum_univ_add]
  congr 1

/-! ## The loss and the halves' partial totals -/

/-- The loss from its three sums: the error sum plus the weight times the two means. -/
def combine (r a d : EReal) : EReal := r + emWeight * (Ideal.div a attCount + Ideal.div d radCount)

/-- Partial totals add up, when the regularisers' shares are nonnegative. -/
theorem combine_add (r0 r1 a0 a1 d0 d1 : EReal) (ha0 : 0 ≤ a0) (ha1 : 0 ≤ a1) (hd0 : 0 ≤ d0) (hd1 : 0 ≤ d1) :
    combine r0 a0 d0 + combine r1 a1 d1 = combine (r0 + r1) (a0 + a1) (d0 + d1) := by
  have hA : ∀ x : EReal, Ideal.div x attCount = x * attCount⁻¹ := fun x => by
    unfold Ideal.div; exact if_neg Cert.Consts.attCount_ne_zero
  have hD : ∀ x : EReal, Ideal.div x radCount = x * radCount⁻¹ := fun x => by
    unfold Ideal.div; exact if_neg Cert.Consts.radCount_ne_zero
  unfold combine
  simp only [hA, hD]
  exact Cert.ScalarLaw.totals_add r0 r1 a0 a1 d0 d1 emWeight _ _ ha0 ha1 hd0 hd1
    (EReal.inv_nonneg_of_nonneg Cert.Consts.attCount_nonneg) (EReal.inv_nonneg_of_nonneg Cert.Consts.radCount_nonneg)

/-- The loss. -/
def total (ar ai : Att 128) (rr ri tr ti : Rad 128) (w : Wts) : EReal :=
  combine (zero + ∑ b, errRow ar ai rr ri tr ti w b) (zero + ∑ b, attRow ar ai b) (zero + ∑ b, radRow rr ri b)

/-- Half `q`'s partial total. -/
def coreTotal (ar ai : Att 128) (rr ri tr ti : Rad 128) (w : Wts) (q : ℕ) : EReal :=
  combine (zero + coreSum (errRow ar ai rr ri tr ti w) q) (zero + coreSum (attRow ar ai) q)
    (zero + coreSum (radRow rr ri) q)

/-- The two halves' partial totals add up to the loss. -/
theorem coreTotal_add (ar ai : Att 128) (rr ri tr ti : Rad 128) (w : Wts) :
    coreTotal ar ai rr ri tr ti w 0 + coreTotal ar ai rr ri tr ti w 1 = total ar ai rr ri tr ti w := by
  unfold coreTotal total
  simp only [zero_eq, zero_add]
  rw [combine_add _ _ _ _ _ _ (coreSum_nonneg (attRow_nonneg ar ai) 0) (coreSum_nonneg (attRow_nonneg ar ai) 1)
    (coreSum_nonneg (radRow_nonneg rr ri) 0) (coreSum_nonneg (radRow_nonneg rr ri) 1),
    coreSum_add, coreSum_add, coreSum_add]

end Cert.Spec

end
-- ==== Proof.Fold.lean ====
import proofs.«123063_j88373247082702_2_alg».proof.Proof.Pieces
import proofs.«123063_j88373247082702_2_alg».proof.Proof.Spec
import Idealize.ShloMosaic.Lib.Pipeline.Value
import Idealize.ShloMosaic.Lib.ValueIdx
import Idealize.ShloMosaic.PureOps.Ideal.Laws

/-!
# The accumulators over a core's run of points, and the block the core writes back

The grid has 32 points, 16 per core. Each of the three accumulators restarts at a core's first point (point
numbers divisible by 16) and adds the point's tile sum at every point. So after point `t` an accumulator holds
`0 + Σ_{s ≤ t mod 16} (tile sum of point 16·⌊t/16⌋ + s)`: a fold over the run of points since the last restart,
read off the per-case values by induction on the position inside the run, not on the grid. At a core's last point
(`t mod 16 = 15`) the output block is filled, at every entry, with the partial total of the three accumulators as
that point leaves them.
-/

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen

/-! ## The updates, split into the previous contents and the tile sum -/

/-- The sum of a (user, antenna, subcarrier) array over all three axes, taken as the body takes it: over users,
    then subcarriers, then antennas, into the one cell. -/
def sumRest {F : FTy → Type} [FloatOps F] (v : FVec F S4x64x408 .f32) : FVec F S1x1 .f32 :=
  shapeCast S1x1 (multiReduction .add [0] S1 (shapeCast S64x1 (multiReduction .add [1] S64
    (multiReduction .add [0] S64x408 v 0x00000000#32 reduces_S4x64x408_S64x408 (.inl rfl) rfl)
    0x00000000#32 reduces_S64x408_S64 (.inl rfl) rfl) shapeCasts_S64_S64x1) 0x00000000#32 reduces_S64x1_S1 (.inl rfl) rfl)
    shapeCasts_S1_S1x1

theorem pay10_eq {F : FTy → Type} [FloatOps F] (v : FVec F S4x64x408 .f32) (acc : Vec F S1x1 .f32) :
    k0_pay10 v acc = addf acc (sumRest v) := by
  unfold k0_pay10 sumRest; exact shapeCast_self _ _

theorem pay1_eq {F : FTy → Type} [FloatOps F] (v acc : Vec F S1x1 .f32) : k0_pay1 v acc = addf acc v := by
  unfold k0_pay1; exact shapeCast_self _ _

theorem pay2_eq {F : FTy → Type} [FloatOps F] (v acc : Vec F S1x1 .f32) : k0_pay2 v acc = addf acc v := by
  unfold k0_pay2; exact shapeCast_self _ _

/-- The three zeros stored at a core's first point are the zero word. -/
theorem pay4_apply (i : S1x1.Idx) : k0_pay4 (F := Ideal) i = Spec.zero := by
  unfold k0_pay4; rw [shapeCast_self]; rfl
theorem pay5_apply (i : S1x1.Idx) : k0_pay5 (F := Ideal) i = Spec.zero := by
  unfold k0_pay5; rw [shapeCast_self]; rfl
theorem pay6_apply (i : S1x1.Idx) : k0_pay6 (F := Ideal) i = Spec.zero := by
  unfold k0_pay6; rw [shapeCast_self]; rfl

/-- The one cell of a [1, 1] vector. -/
abbrev cell : S1x1.Idx := ix2 (0 : Fin 1) (0 : Fin 1)

/-- The partial total the last point broadcasts over the output block, at any entry: the loss's form of the three
    accumulators' cells. -/
theorem pay3_apply (a d r : Vec Ideal S1x1 .f32) (y : S8x128.Idx) :
    k0_pay3 (F := Ideal) a d r y = Spec.combine (r cell) (a cell) (d cell) := by
  unfold k0_pay3
  rw [broadcastTo_apply _ broadcasts_S1x1_S8x128 y cell (fun a => match a with
    | ⟨0, _⟩ => by show (0 : Nat) = if (1 : Nat) = 1 then 0 else _; rw [if_pos rfl]
    | ⟨1, _⟩ => by show (0 : Nat) = if (1 : Nat) = 1 then 0 else _; rw [if_pos rfl])]
  rw [shapeCast_self]
  rfl

/-! ## A quantity that restarts every 16 points and adds a term at each point -/

/-- Such a quantity, after point `t`, is the restart value plus the terms of the points since the restart. -/
theorem restart_sum {N : ℕ} (f E : (n : ℕ) → n < N → S1x1.Idx → EReal) (z : S1x1.Idx → EReal)
    (h0 : ∀ (n : ℕ) (h : n < N), n % 16 = 0 → f n h = fun i => z i + E n h i)
    (hs : ∀ (n : ℕ) (h : n + 1 < N), ¬(n + 1) % 16 = 0 →
      f (n + 1) h = fun i => f n (Nat.lt_of_succ_lt h) i + E (n + 1) h i)
    (t : ℕ) (ht : t < N) (i : S1x1.Idx) :
    f t ht i = z i + ∑ s ∈ Finset.range (t % 16 + 1), (if h : 16 * (t / 16) + s < N then E _ h i else 0) := by
  have h' : 16 * (t / 16) + t % 16 < N := by rw [Nat.div_add_mod]; exact ht
  rw [Pipeline.eq_accAt_of_mod f 16 (fun n h i => z i + E n h i) (fun n h acc i => acc i + E n h i) h0 hs
    (by decide) t ht h']
  exact Pipeline.accAt_add_apply (fun n h i => z i + E n h i) (fun n h acc i => acc i + E n h i) z
    (fun n i => if h : n < N then E n h i else 0) (16 * (t / 16)) (t % 16)
    (fun h i => by rw [dif_pos h]) (fun n h acc i _ _ => by rw [dif_pos h]) (t % 16) (le_refl _) h' i

/-! ## The three accumulators -/

variable (m : (ℓ : Loc nD τ sig) → Buf (Elt Ideal) ℓ)

/-- Point `n`'s three tile sums, of the blocks the windows hold at that point. -/
def tileErr (c : Dev nD) (n : ℕ) (h : n < cfg0.N) : S1x1.Idx → EReal :=
  sumRest (F := Ideal) (k0_pay7 (iblk m c 0 ⟨n, h⟩) (iblk m c 1 ⟨n, h⟩) (iblk m c 2 ⟨n, h⟩) (iblk m c 3 ⟨n, h⟩)
    (iblk m c 4 ⟨n, h⟩) (iblk m c 5 ⟨n, h⟩) (iblk m c 6 ⟨n, h⟩))
def tileAtt (c : Dev nD) (n : ℕ) (h : n < cfg0.N) : S1x1.Idx → EReal :=
  k0_pay8 (F := Ideal) (iblk m c 0 ⟨n, h⟩) (iblk m c 1 ⟨n, h⟩)
def tileRad (c : Dev nD) (n : ℕ) (h : n < cfg0.N) : S1x1.Idx → EReal :=
  k0_pay9 (F := Ideal) (iblk m c 2 ⟨n, h⟩) (iblk m c 3 ⟨n, h⟩)

theorem err_first (c : Dev nD) (n : ℕ) (h : n < cfg0.N) (h0 : n % 16 = 0) :
    (outsAt0 m c n h).2.1 = fun i => Spec.zero + tileErr m c n h i := by
  have h1 : ¬n % 16 = 15 := by omega
  rw [outsAt0_A m c ⟨n, h⟩ h0 h1]
  dsimp only
  rw [Pieces.sA0, pay10_eq]
  funext i
  show k0_pay4 (F := Ideal) i + _ = _
  rw [pay4_apply]; rfl

theorem err_step (c : Dev nD) (n : ℕ) (h : n + 1 < cfg0.N) (hne : ¬(n + 1) % 16 = 0) :
    (outsAt0 m c (n + 1) h).2.1 = fun i => (outsAt0 m c n (Nat.lt_of_succ_lt h)).2.1 i + tileErr m c (n + 1) h i := by
  by_cases h1 : (n + 1) % 16 = 15
  · rw [outsAt0_C m c ⟨n + 1, h⟩ hne h1]
    dsimp only
    rw [Pieces.sC0, pay10_eq]; rfl
  · rw [outsAt0_B m c ⟨n + 1, h⟩ hne h1]
    dsimp only
    rw [Pieces.sB0, pay10_eq]; rfl

theorem att_first (c : Dev nD) (n : ℕ) (h : n < cfg0.N) (h0 : n % 16 = 0) :
    (outsAt0 m c n h).2.2.1 = fun i => Spec.zero + tileAtt m c n h i := by
  have h1 : ¬n % 16 = 15 := by omega
  rw [outsAt0_A m c ⟨n, h⟩ h0 h1]
  dsimp only
  rw [Pieces.sA1, pay1_eq]
  funext i
  show k0_pay5 (F := Ideal) i + _ = _
  rw [pay5_apply]; rfl

theorem att_step (c : Dev nD) (n : ℕ) (h : n + 1 < cfg0.N) (hne : ¬(n + 1) % 16 = 0) :
    (outsAt0 m c (n + 1) h).2.2.1 = fun i => (outsAt0 m c n (Nat.lt_of_succ_lt h)).2.2.1 i + tileAtt m c (n + 1) h i := by
  by_cases h1 : (n + 1) % 16 = 15
  · rw [outsAt0_C m c ⟨n + 1, h⟩ hne h1]
    dsimp only
    rw [Pieces.sC1, pay1_eq]; rfl
  · rw [outsAt0_B m c ⟨n + 1, h⟩ hne h1]
    dsimp only
    rw [Pieces.sB1, pay1_eq]; rfl

theorem rad_first (c : Dev nD) (n : ℕ) (h : n < cfg0.N) (h0 : n % 16 = 0) :
    (outsAt0 m c n h).2.2.2 = fun i => Spec.zero + tileRad m c n h i := by
  have h1 : ¬n % 16 = 15 := by omega
  rw [outsAt0_A m c ⟨n, h⟩ h0 h1]
  dsimp only
  rw [Pieces.sA2, pay2_eq]
  funext i
  show k0_pay6 (F := Ideal) i + _ = _
  rw [pay6_apply]; rfl

theorem rad_step (c : Dev nD) (n : ℕ) (h : n + 1 < cfg0.N) (hne : ¬(n + 1) % 16 = 0) :
    (outsAt0 m c (n + 1) h).2.2.2 = fun i => (outsAt0 m c n (Nat.lt_of_succ_lt h)).2.2.2 i + tileRad m c (n + 1) h i := by
  by_cases h1 : (n + 1) % 16 = 15
  · rw [outsAt0_C m c ⟨n + 1, h⟩ hne h1]
    dsimp only
    rw [Pieces.sC2, pay2_eq]; rfl
  · rw [outsAt0_B m c ⟨n + 1, h⟩ hne h1]
    dsimp only
    rw [Pieces.sB2, pay2_eq]; rfl

/-! ## The block a core's last point leaves in the output's staging buffer -/

/-- At a core's last point the output block is the partial total of the accumulators as that point leaves them. -/
theorem out_last (c : Dev nD) (t : ℕ) (ht : t < cfg0.N) (h15 : t % 16 = 15) :
    (outsAt0 m c t ht).1
      = k0_pay3 (F := Ideal) (outsAt0 m c t ht).2.2.1 (outsAt0 m c t ht).2.2.2 (outsAt0 m c t ht).2.1 := by
  have h0 : ¬t % 16 = 0 := by omega
  rw [outsAt0_C m c ⟨t, ht⟩ h0 h15]
  dsimp only
  rw [Pieces.oC7, Pieces.sC0, Pieces.sC1, Pieces.sC2]

/-- So, at every entry, it is the loss's form of zero plus the sums of the core's 16 tile sums. -/
theorem out_last_apply (c : Dev nD) (q : ℕ) (ht : 16 * q + 15 < cfg0.N) (y : S8x128.Idx) :
    (outsAt0 m c (16 * q + 15) ht).1 y
      = Spec.combine
          (Spec.zero + ∑ s ∈ Finset.range 16, (if h : 16 * q + s < cfg0.N then tileErr m c _ h cell else 0))
          (Spec.zero + ∑ s ∈ Finset.range 16, (if h : 16 * q + s < cfg0.N then tileAtt m c _ h cell else 0))
          (Spec.zero + ∑ s ∈ Finset.range 16, (if h : 16 * q + s < cfg0.N then tileRad m c _ h cell else 0)) := by
  have hm : (16 * q + 15) % 16 = 15 := by omega
  have hd : (16 * q + 15) / 16 = q := by omega
  rw [out_last m c _ ht hm, pay3_apply]
  rw [restart_sum (fun n h => (outsAt0 m c n h).2.1) (tileErr m c) (fun _ => Spec.zero)
      (err_first m c) (err_step m c) _ ht cell,
    restart_sum (fun n h => (outsAt0 m c n h).2.2.1) (tileAtt m c) (fun _ => Spec.zero)
      (att_first m c) (att_step m c) _ ht cell,
    restart_sum (fun n h => (outsAt0 m c n h).2.2.2) (tileRad m c) (fun _ => Spec.zero)
      (rad_first m c) (rad_step m c) _ ht cell]
  simp only [hm, hd]

end Cert.KernelIdeal.Fold

end
-- ==== Proof.LibAxisSum.lean ====
import Idealize.ShloMosaic.PureOps.Ideal.Laws
import Idealize.ShloMosaic.Lib.ValueIdx
import Idealize.ShloMosaic.Lib.Pipeline.Value

/-!
# A kernel's one-axis sums and keepdims casts, read at an entry

Over the extended reals a `vector.multi_reduction <add>` over one axis, from the zero word, is at each remaining
index the plain sum over that axis's coordinate. Stated here with the indices spelt by coordinates, for the
leading axis of arrays of rank 4, 3 and 2 and for the trailing axis of a rank-2 array, at any extents; and the cast
of a vector to a one-lane column, which a sum with kept dimensions goes through, read at an entry.
-/

noncomputable section

open scoped BigOperators

namespace Cert.Lib

open Idealize.ShloMosaic Idealize.ShloMosaic.ValueIdx

/-- The sum over the leading axis of a rank-4 array. -/
theorem sum_lead4 {a b c d : ℕ} (v : FVec Ideal ⟨4, ![a, b, c, d]⟩ .f32)
    (h : Shape.Reduces ⟨4, ![a, b, c, d]⟩ [0] ⟨3, ![b, c, d]⟩) (hφ : FKind.Formats .f32)
    (hacc : (0x00000000#32 : BitVec 32) = FKind.add.neutral .f32 hφ) (p : Fin b) (q : Fin c) (r : Fin d) :
    multiReduction .add [0] ⟨3, ![b, c, d]⟩ v 0x00000000#32 h hφ hacc (ix3 p q r) = ∑ k : Fin a, v (ix4 k p q r) :=
  (Ideal.multiReduction_add_single v _ h hφ hacc (ix3 p q r)).trans
    (Finset.sum_congr rfl fun k _ => congrArg v (funext fun e => match e with
      | ⟨0, _⟩ => rfl | ⟨1, _⟩ => rfl | ⟨2, _⟩ => rfl | ⟨3, _⟩ => rfl))

/-- The sum over the leading axis of a rank-3 array. -/
theorem sum_lead3 {a b c : ℕ} (v : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (p : Fin b) (q : Fin c) :
    multiReduction .add [0] ⟨2, ![b, c]⟩ v 0x00000000#32 h hφ hacc (ix2 p q) = ∑ k : Fin a, v (ix3 k p q) :=
  (Ideal.multiReduction_add_single v _ h hφ hacc (ix2 p q)).trans
    (Finset.sum_congr rfl fun k _ => congrArg v (funext fun e => match e with
      | ⟨0, _⟩ => rfl | ⟨1, _⟩ => rfl | ⟨2, _⟩ => rfl))

/-- The sum over the leading axis of a rank-2 array. -/
theorem sum_lead2 {a b : ℕ} (v : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (p : Fin b) :
    multiReduction .add [0] ⟨1, ![b]⟩ v 0x00000000#32 h hφ hacc (ix1 p) = ∑ k : Fin a, v (ix2 k p) :=
  (Ideal.multiReduction_add_single v _ h hφ hacc (ix1 p)).trans
    (Finset.sum_congr rfl fun k _ => congrArg v (funext fun e => match e with
      | ⟨0, _⟩ => rfl | ⟨1, _⟩ => rfl))

/-- The sum over the trailing axis of a rank-2 array. -/
theorem sum_trail2 {a b : ℕ} (v : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ v 0x00000000#32 h hφ hacc (ix1 p) = ∑ k : Fin b, v (ix2 p k) :=
  (Ideal.multiReduction_add_single v _ h hφ hacc (ix1 p)).trans
    (Finset.sum_congr rfl fun k _ => congrArg v (funext fun e => match e with
      | ⟨0, _⟩ => rfl | ⟨1, _⟩ => rfl))

/-- A vector cast to a one-lane column reads, at row `p`, the vector's entry `p`. -/
theorem cast_column_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.Lib

end
-- ==== Proof.LibSumIdx.lean ====
import Idealize.ShloMosaic.Lib.ValueIdx

/-!
# Sums over rank-3 and rank-4 index sets, coordinate by coordinate

An index of a rank-`k` shape is the tuple of its coordinates, so a sum over the whole index set is the iterated
sum over the coordinate ranges, outermost axis first. The rank-2 case is the library's `sum_idx2`; these are the
same statement at ranks 3 and 4, in any commutative additive monoid (no finiteness is involved in regrouping).
Two rotations of nested sums follow: the order in which a reduction visits its axes does not change the total.
-/

noncomputable section

open scoped BigOperators

namespace Cert.Lib

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over its coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Three nested sums with the outermost index moved innermost. -/
theorem sum_rot3 {M : Type*} [AddCommMonoid M] {α β γ : Type*} [Fintype α] [Fintype β] [Fintype γ]
    (g : α → β → γ → M) : ∑ a, ∑ b, ∑ c, g a b c = ∑ b, ∑ c, ∑ a, g a b c := by
  calc ∑ a, ∑ b, ∑ c, g a b c = ∑ b, ∑ a, ∑ c, g a b c := Finset.sum_comm
    _ = ∑ b, ∑ c, ∑ a, g a b c := Finset.sum_congr rfl fun b _ => Finset.sum_comm

/-- Four nested sums with the innermost index moved outermost. -/
theorem sum_rot4 {M : Type*} [AddCommMonoid M] {α β γ δ : Type*} [Fintype α] [Fintype β] [Fintype γ] [Fintype δ]
    (g : α → β → γ → δ → M) : ∑ c, ∑ d, ∑ b, ∑ a, g a b c d = ∑ a, ∑ c, ∑ d, ∑ b, g a b c d := by
  calc ∑ c, ∑ d, ∑ b, ∑ a, g a b c d = ∑ c, ∑ d, ∑ a, ∑ b, g a b c d :=
        Finset.sum_congr rfl fun c _ => Finset.sum_congr rfl fun d _ => Finset.sum_comm
    _ = ∑ c, ∑ a, ∑ d, ∑ b, g a b c d := Finset.sum_congr rfl fun c _ => Finset.sum_comm
    _ = ∑ a, ∑ c, ∑ d, ∑ b, g a b c d := Finset.sum_comm

end Cert.Lib

end
-- ==== Proof.TileValue.lean ====
import proofs.«123063_j88373247082702_2_alg».proof.Proof.Fold
import proofs.«123063_j88373247082702_2_alg».proof.Proof.LibAxisSum
import proofs.«123063_j88373247082702_2_alg».proof.Proof.LibSumIdx

/-!
# A point's three tile sums are sums of row quantities

At point `t` the windows hold batch rows `4t … 4t+3` of the six big arrays (and all of the weights). The body's
three tile sums are nested one-axis sums of entry-wise expressions of those blocks. Read at their one cell:

* the error tile sum is `Σ_antenna Σ_subcarrier Σ_user Σ_row err`,
* the attenuation tile sum is `Σ_user Σ_subcarrier Σ_row attPen`,
* the radiation tile sum is `Σ_antenna Σ_subcarrier Σ_user Σ_row radPen`,

each with the entry-wise quantity of the blocks, which is that of the whole arrays at row `4t + row`. Moving the sum
over the tile's rows outermost (sums commute) makes each a sum of four row quantities: the specification's `tileSum`.
-/

noncomputable section

open scoped BigOperators
open Idealize.ShloMosaic Idealize.ShloMosaic.TcCoe Idealize.SL.Sem Idealize.ShloMosaic.ValueIdx

namespace Cert.KernelIdeal.Tile

open Cert.KernelIdeal Cert.KernelIdeal.Gen Cert.KernelIdeal.Fold Cert.Lib

/-! ## The layout operations of the body, at an entry -/

/-- An attenuation block given a unit antenna axis reads, at antenna 0, the block. -/
theorem cast_att (x : Vec Ideal S4x4x408 .f32) (b' u : Fin 4) (s : Fin 408) :
    shapeCast S4x4x1x408 x shapeCasts_S4x4x408_S4x4x1x408 (ix4 b' u (0 : Fin 1) s) = x (ix3 b' u s) :=
  shapeCast_apply x shapeCasts_S4x4x408_S4x4x1x408 (ix4 b' u (0 : Fin 1) s) (ix3 b' u s) (by
    rw [Shape.rowMajor_val_three, Shape.rowMajor_val_four]
    show (b'.val * 4 + u.val) * 408 + s.val = ((b'.val * 4 + u.val) * 1 + 0) * 408 + s.val
    omega)

/-- Broadcast along the antenna axis, it reads the same at every antenna. -/
theorem bcast_att (v : FVec Ideal S4x4x1x408 .f32) (b' u : Fin 4) (n : Fin 64) (s : Fin 408) :
    broadcastTo S4x4x64x408 v broadcasts_S4x4x1x408_S4x4x64x408 (ix4 b' u n s) = v (ix4 b' u (0 : Fin 1) s) :=
  broadcastTo_apply v broadcasts_S4x4x1x408_S4x4x64x408 (ix4 b' u n s) (ix4 b' u (0 : Fin 1) s) (fun a => match a with
    | ⟨0, _⟩ => by show b'.val = if (4 : Nat) = 1 then 0 else b'.val; rw [if_neg (by decide)]
    | ⟨1, _⟩ => by show u.val = if (4 : Nat) = 1 then 0 else u.val; rw [if_neg (by decide)]
    | ⟨2, _⟩ => by show (0 : Nat) = if (1 : Nat) = 1 then 0 else n.val; rw [if_pos rfl]
    | ⟨3, _⟩ => by show s.val = if (408 : Nat) = 1 then 0 else s.val; rw [if_neg (by decide)])

/-- The weights given three unit axes read, at their origin, the weights. -/
theorem cast_wts (x : Vec Ideal S408 .f32) (s : Fin 408) :
    shapeCast S1x1x1x408 x shapeCasts_S408_S1x1x1x408 (ix4 (0 : Fin 1) (0 : Fin 1) (0 : Fin 1) s) = x (ix1 s) :=
  shapeCast_apply x shapeCasts_S408_S1x1x1x408 (ix4 (0 : Fin 1) (0 : Fin 1) (0 : Fin 1) s) (ix1 s) (by
    rw [Shape.rowMajor_val_one, Shape.rowMajor_val_four]
    show s.val = ((0 * 1 + 0) * 1 + 0) * 408 + s.val
    omega)

/-- Broadcast over rows, users and antennas, they read the same everywhere. -/
theorem bcast_wts (v : FVec Ideal S1x1x1x408 .f32) (b' u : Fin 4) (n : Fin 64) (s : Fin 408) :
    broadcastTo S4x4x64x408 v broadcasts_S1x1x1x408_S4x4x64x408 (ix4 b' u n s)
      = v (ix4 (0 : Fin 1) (0 : Fin 1) (0 : Fin 1) s) :=
  broadcastTo_apply v broadcasts_S1x1x1x408_S4x4x64x408 (ix4 b' u n s) (ix4 (0 : Fin 1) (0 : Fin 1) (0 : Fin 1) s)
    (fun a => match a with
    | ⟨0, _⟩ => by show (0 : Nat) = if (1 : Nat) = 1 then 0 else b'.val; rw [if_pos rfl]
    | ⟨1, _⟩ => by show (0 : Nat) = if (1 : Nat) = 1 then 0 else u.val; rw [if_pos rfl]
    | ⟨2, _⟩ => by show (0 : Nat) = if (1 : Nat) = 1 then 0 else n.val; rw [if_pos rfl]
    | ⟨3, _⟩ => by show s.val = if (408 : Nat) = 1 then 0 else s.val; rw [if_neg (by decide)])

/-! ## The payloads, at an entry -/

/-- The weighted squared error summed over the tile's rows, at (user, antenna, subcarrier). -/
theorem pay7_entry (x0 x1 : Vec Ideal S4x4x408 .f32) (x2 x3 x4 x5 : Vec Ideal S4x4x64x408 .f32) (x6 : Vec Ideal S408 .f32)
    (u : Fin 4) (n : Fin 64) (s : Fin 408) :
    k0_pay7 (F := Ideal) x0 x1 x2 x3 x4 x5 x6 (ix3 u n s) = ∑ b' : Fin 4, Spec.err x0 x1 x2 x3 x4 x5 x6 b' u n s := by
  unfold k0_pay7
  refine (sum_lead4 _ reduces_S4x4x64x408_S4x64x408 (.inl rfl) rfl u n s).trans (Finset.sum_congr rfl fun b' _ => ?_)
  have e0 : broadcastTo S4x4x64x408 (shapeCast S4x4x1x408 x0 shapeCasts_S4x4x408_S4x4x1x408)
      broadcasts_S4x4x1x408_S4x4x64x408 (ix4 b' u n s) = x0 (ix3 b' u s) := (bcast_att _ b' u n s).trans (cast_att x0 b' u s)
  have e1 : broadcastTo S4x4x64x408 (shapeCast S4x4x1x408 x1 shapeCasts_S4x4x408_S4x4x1x408)
      broadcasts_S4x4x1x408_S4x4x64x408 (ix4 b' u n s) = x1 (ix3 b' u s) := (bcast_att _ b' u n s).trans (cast_att x1 b' u s)
  have e6 : broadcastTo S4x4x64x408 (shapeCast S1x1x1x408 x6 shapeCasts_S408_S1x1x1x408)
      broadcasts_S1x1x1x408_S4x4x64x408 (ix4 b' u n s) = x6 (ix1 s) := (bcast_wts _ b' u n s).trans (cast_wts x6 s)
  simp only [mulf_apply, addf_apply, subf_apply]
  rw [e0, e1, e6]
  rfl

/-- A (user, antenna, subcarrier) array summed to one cell: antennas outermost, then subcarriers, then users. -/
theorem sumRest_cell (v : FVec Ideal S4x64x408 .f32) :
    sumRest (F := Ideal) v cell = ∑ n : Fin 64, ∑ s : Fin 408, ∑ u : Fin 4, v (ix3 u n s) := by
  unfold sumRest
  exact (cast_column_apply _ shapeCasts_S1_S1x1 (0 : Fin 1)).trans
    ((sum_lead2 _ reduces_S64x1_S1 (.inl rfl) rfl (0 : Fin 1)).trans (Finset.sum_congr rfl fun n _ =>
      (cast_column_apply _ shapeCasts_S64_S64x1 n).trans
        ((sum_trail2 _ reduces_S64x408_S64 (.inl rfl) rfl n).trans (Finset.sum_congr rfl fun s _ =>
          sum_lead3 _ reduces_S4x64x408_S64x408 (.inl rfl) rfl n s))))

/-- The attenuation regulariser's tile sum: users outermost, then subcarriers, then the tile's rows. -/
theorem pay8_cell (x0 x1 : Vec Ideal S4x4x408 .f32) :
    k0_pay8 (F := Ideal) x0 x1 cell = ∑ u : Fin 4, ∑ s : Fin 408, ∑ b' : Fin 4, Spec.attPen x0 x1 b' u s := by
  unfold k0_pay8
  exact (cast_column_apply _ shapeCasts_S1_S1x1 (0 : Fin 1)).trans
    ((sum_lead2 _ reduces_S4x1_S1 (.inl rfl) rfl (0 : Fin 1)).trans (Finset.sum_congr rfl fun u _ =>
      (cast_column_apply _ shapeCasts_S4_S4x1 u).trans
        ((sum_trail2 _ reduces_S4x408_S4 (.inl rfl) rfl u).trans (Finset.sum_congr rfl fun s _ =>
          (sum_lead3 _ reduces_S4x4x408_S4x408 (.inl rfl) rfl u s).trans (Finset.sum_congr rfl fun b' _ => rfl)))))

/-- The radiation regulariser's tile sum. -/
theorem pay9_cell (x2 x3 : Vec Ideal S4x4x64x408 .f32) :
    k0_pay9 (F := Ideal) x2 x3 cell
      = ∑ n : Fin 64, ∑ s : Fin 408, ∑ u : Fin 4, ∑ b' : Fin 4, Spec.radPen x2 x3 b' u n s := by
  have e : k0_pay9 (F := Ideal) x2 x3 = sumRest (F := Ideal) (multiReduction .add [0] S4x64x408
      (mulf (maximumf (subf (sqrt (addf (mulf x2 x2) (mulf x3 x3))) (broadcast S4x4x64x408 (Scalar.ofBits .f32 0x41200000#32)))
          (broadcast S4x4x64x408 (Scalar.ofBits .f32 0x00000000#32)))
        (maximumf (subf (sqrt (addf (mulf x2 x2) (mulf x3 x3))) (broadcast S4x4x64x408 (Scalar.ofBits .f32 0x41200000#32)))
          (broadcast S4x4x64x408 (Scalar.ofBits .f32 0x00000000#32))))
      0x00000000#32 reduces_S4x4x64x408_S4x64x408 (.inl rfl) rfl) := rfl
  rw [e, sumRest_cell]
  refine Finset.sum_congr rfl fun n _ => Finset.sum_congr rfl fun s _ => Finset.sum_congr rfl fun u _ => ?_
  exact (sum_lead4 _ reduces_S4x4x64x408_S4x64x408 (.inl rfl) rfl u n s).trans (Finset.sum_congr rfl fun b' _ => rfl)

/-! ## The windows' blocks are rows `4t … 4t+3` of the arrays -/

variable (m : (ℓ : Loc nD τ sig) → Buf (Elt Ideal) ℓ)

/-- Every big window's block index at point `t` is `t` along the batch and 0 elsewhere; the weights' is 0. -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0 ∧ win0_2.index t 3 = 0)
    ∧ (win0_3.index t 0 = t.val ∧ win0_3.index t 1 = 0 ∧ win0_3.index t 2 = 0 ∧ win0_3.index t 3 = 0)
    ∧ (win0_4.index t 0 = t.val ∧ win0_4.index t 1 = 0 ∧ win0_4.index t 2 = 0 ∧ win0_4.index t 3 = 0)
    ∧ (win0_5.index t 0 = t.val ∧ win0_5.index t 1 = 0 ∧ win0_5.index t 2 = 0 ∧ win0_5.index t 3 = 0)
    ∧ win0_6.index t 0 = 0 :=
  (by decide +kernel : ∀ t : Fin grid0.N, _)

/-- The row of the batch that row `b'` of tile `t` is. -/
def rowOf (t : Fin cfg0.N) (b' : Fin 4) : Fin 128 :=
  ⟨4 * t.val + b'.val, by have := t.isLt; have hN : cfg0.N = 32 := N_0; have := b'.isLt; omega⟩

theorem blk0_apply (c : Dev nD) (t : Fin cfg0.N) (b' u : Fin 4) (s : Fin 408) :
    (iblk m c 0 t : Vec Ideal S4x4x408 .f32) (ix3 b' u s) = m ((c.tc : Thread nD τ).loc main_arg0) (ix3 (rowOf t b') u s) := by
  unfold iblk
  rw [View.read_apply]
  show m ((c.tc : Thread nD τ).loc main_arg0) _ = m ((c.tc : Thread nD τ).loc main_arg0) _
  congr 1; funext a; apply Fin.ext
  have hi := (idx_facts t).1
  match a with
  | ⟨0, _⟩ => show win0_0.index t 0 * 4 + 1 * b'.val = 4 * t.val + b'.val; rw [hi.1]; omega
  | ⟨1, _⟩ => show win0_0.index t 1 * 4 + 1 * u.val = u.val; rw [hi.2.1]; omega
  | ⟨2, _⟩ => show win0_0.index t 2 * 408 + 1 * s.val = s.val; rw [hi.2.2]; omega

theorem blk1_apply (c : Dev nD) (t : Fin cfg0.N) (b' u : Fin 4) (s : Fin 408) :
    (iblk m c 1 t : Vec Ideal S4x4x408 .f32) (ix3 b' u s) = m ((c.tc : Thread nD τ).loc main_arg1) (ix3 (rowOf t b') u s) := by
  unfold iblk
  rw [View.read_apply]
  show m ((c.tc : Thread nD τ).loc main_arg1) _ = m ((c.tc : Thread nD τ).loc main_arg1) _
  congr 1; funext a; apply Fin.ext
  have hi := (idx_facts t).2.1
  match a with
  | ⟨0, _⟩ => show win0_1.index t 0 * 4 + 1 * b'.val = 4 * t.val + b'.val; rw [hi.1]; omega
  | ⟨1, _⟩ => show win0_1.index t 1 * 4 + 1 * u.val = u.val; rw [hi.2.1]; omega
  | ⟨2, _⟩ => show win0_1.index t 2 * 408 + 1 * s.val = s.val; rw [hi.2.2]; omega

theorem blk2_apply (c : Dev nD) (t : Fin cfg0.N) (b' u : Fin 4) (n : Fin 64) (s : Fin 408) :
    (iblk m c 2 t : Vec Ideal S4x4x64x408 .f32) (ix4 b' u n s) = m ((c.tc : Thread nD τ).loc main_arg2) (ix4 (rowOf t b') u n s) := by
  unfold iblk
  rw [View.read_apply]
  show m ((c.tc : Thread nD τ).loc main_arg2) _ = m ((c.tc : Thread nD τ).loc main_arg2) _
  congr 1; funext a; apply Fin.ext
  have hi := (idx_facts t).2.2.1
  match a with
  | ⟨0, _⟩ => show win0_2.index t 0 * 4 + 1 * b'.val = 4 * t.val + b'.val; rw [hi.1]; omega
  | ⟨1, _⟩ => show win0_2.index t 1 * 4 + 1 * u.val = u.val; rw [hi.2.1]; omega
  | ⟨2, _⟩ => show win0_2.index t 2 * 64 + 1 * n.val = n.val; rw [hi.2.2.1]; omega
  | ⟨3, _⟩ => show win0_2.index t 3 * 408 + 1 * s.val = s.val; rw [hi.2.2.2]; omega

theorem blk3_apply (c : Dev nD) (t : Fin cfg0.N) (b' u : Fin 4) (n : Fin 64) (s : Fin 408) :
    (iblk m c 3 t : Vec Ideal S4x4x64x408 .f32) (ix4 b' u n s) = m ((c.tc : Thread nD τ).loc main_arg3) (ix4 (rowOf t b') u n s) := by
  unfold iblk
  rw [View.read_apply]
  show m ((c.tc : Thread nD τ).loc main_arg3) _ = m ((c.tc : Thread nD τ).loc main_arg3) _
  congr 1; funext a; apply Fin.ext
  have hi := (idx_facts t).2.2.2.1
  match a with
  | ⟨0, _⟩ => show win0_3.index t 0 * 4 + 1 * b'.val = 4 * t.val + b'.val; rw [hi.1]; omega
  | ⟨1, _⟩ => show win0_3.index t 1 * 4 + 1 * u.val = u.val; rw [hi.2.1]; omega
  | ⟨2, _⟩ => show win0_3.index t 2 * 64 + 1 * n.val = n.val; rw [hi.2.2.1]; omega
  | ⟨3, _⟩ => show win0_3.index t 3 * 408 + 1 * s.val = s.val; rw [hi.2.2.2]; omega

theorem blk4_apply (c : Dev nD) (t : Fin cfg0.N) (b' u : Fin 4) (n : Fin 64) (s : Fin 408) :
    (iblk m c 4 t : Vec Ideal S4x4x64x408 .f32) (ix4 b' u n s) = m ((c.tc : Thread nD τ).loc main_arg4) (ix4 (rowOf t b') u n s) := by
  unfold iblk
  rw [View.read_apply]
  show m ((c.tc : Thread nD τ).loc main_arg4) _ = m ((c.tc : Thread nD τ).loc main_arg4) _
  congr 1; funext a; apply Fin.ext
  have hi := (idx_facts t).2.2.2.2.1
  match a with
  | ⟨0, _⟩ => show win0_4.index t 0 * 4 + 1 * b'.val = 4 * t.val + b'.val; rw [hi.1]; omega
  | ⟨1, _⟩ => show win0_4.index t 1 * 4 + 1 * u.val = u.val; rw [hi.2.1]; omega
  | ⟨2, _⟩ => show win0_4.index t 2 * 64 + 1 * n.val = n.val; rw [hi.2.2.1]; omega
  | ⟨3, _⟩ => show win0_4.index t 3 * 408 + 1 * s.val = s.val; rw [hi.2.2.2]; omega

theorem blk5_apply (c : Dev nD) (t : Fin cfg0.N) (b' u : Fin 4) (n : Fin 64) (s : Fin 408) :
    (iblk m c 5 t : Vec Ideal S4x4x64x408 .f32) (ix4 b' u n s) = m ((c.tc : Thread nD τ).loc main_arg5) (ix4 (rowOf t b') u n s) := by
  unfold iblk
  rw [View.read_apply]
  show m ((c.tc : Thread nD τ).loc main_arg5) _ = m ((c.tc : Thread nD τ).loc main_arg5) _
  congr 1; funext a; apply Fin.ext
  have hi := (idx_facts t).2.2.2.2.2.1
  match a with
  | ⟨0, _⟩ => show win0_5.index t 0 * 4 + 1 * b'.val = 4 * t.val + b'.val; rw [hi.1]; omega
  | ⟨1, _⟩ => show win0_5.index t 1 * 4 + 1 * u.val = u.val; rw [hi.2.1]; omega
  | ⟨2, _⟩ => show win0_5.index t 2 * 64 + 1 * n.val = n.val; rw [hi.2.2.1]; omega
  | ⟨3, _⟩ => show win0_5.index t 3 * 408 + 1 * s.val = s.val; rw [hi.2.2.2]; omega

theorem blk6_eq (c : Dev nD) (t : Fin cfg0.N) : (iblk m c 6 t : Vec Ideal S408 .f32) = m ((c.tc : Thread nD τ).loc main_arg6) := by
  funext j
  unfold iblk
  rw [View.read_apply]
  show m ((c.tc : Thread nD τ).loc main_arg6) _ = m ((c.tc : Thread nD τ).loc main_arg6) j
  congr 1; funext a; apply Fin.ext
  have hi := (idx_facts t).2.2.2.2.2.2
  match a with
  | ⟨0, _⟩ => show win0_6.index t 0 * 408 + 1 * (j 0).val = (j 0).val; rw [hi]; omega

/-! ## The three tile sums -/

/-- The error tile sum of point `n` is the sum of the error row quantities of rows `4n … 4n+3`. -/
theorem tileErr_eq (c : Dev nD) (n : ℕ) (h : n < cfg0.N) :
    tileErr m c n h cell = Spec.tileSum (Spec.errRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) n := by
  unfold tileErr
  rw [sumRest_cell]
  have e : ∀ (n' : Fin 64) (s : Fin 408) (u : Fin 4),
      k0_pay7 (F := Ideal) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (ix3 u n' s)
        = ∑ b' : Fin 4, Spec.err (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (rowOf ⟨n, h⟩ b') u n' s := fun n' s u =>
    (pay7_entry (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) u n' s).trans (Finset.sum_congr rfl fun b' _ =>
      Spec.err_tile (rowOf ⟨n, h⟩) (blk0_apply m c ⟨n, h⟩) (blk1_apply m c ⟨n, h⟩) (blk2_apply m c ⟨n, h⟩)
        (blk3_apply m c ⟨n, h⟩) (blk4_apply m c ⟨n, h⟩) (blk5_apply m c ⟨n, h⟩) (blk6_eq m c ⟨n, h⟩) b' u n' s)
  rw [Finset.sum_congr rfl fun n' _ => Finset.sum_congr rfl fun s _ => Finset.sum_congr rfl fun u _ => e n' s u]
  rw [sum_rot4 (fun (b' : Fin 4) (u : Fin 4) (n' : Fin 64) (s : Fin 408) =>
    Spec.err (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (rowOf ⟨n, h⟩ b') u n' s)]
  unfold Spec.tileSum
  refine Finset.sum_congr rfl fun b' _ => ?_
  unfold Spec.ext
  rw [dif_pos (show 4 * n + b'.val < 128 from (rowOf ⟨n, h⟩ b').isLt)]
  rfl

/-- The attenuation tile sum of point `n`, likewise. -/
theorem tileAtt_eq (c : Dev nD) (n : ℕ) (h : n < cfg0.N) :
    tileAtt m c n h cell = Spec.tileSum (Spec.attRow (m ((c.tc : Thread nD τ).loc main_arg0)) (m ((c.tc : Thread nD τ).loc main_arg1))) n := by
  unfold tileAtt
  rw [pay8_cell (iblk m c 0 ⟨n, h⟩) (iblk m c 1 ⟨n, h⟩)]
  rw [Finset.sum_congr rfl fun u _ => Finset.sum_congr rfl fun s _ => Finset.sum_congr rfl fun b' _ =>
    Spec.attPen_tile (rowOf ⟨n, h⟩) (blk0_apply m c ⟨n, h⟩) (blk1_apply m c ⟨n, h⟩) b' u s]
  rw [← sum_rot3 (fun (b' : Fin 4) (u : Fin 4) (s : Fin 408) => Spec.attPen (m ((c.tc : Thread nD τ).loc main_arg0)) (m ((c.tc : Thread nD τ).loc main_arg1)) (rowOf ⟨n, h⟩ b') u s)]
  unfold Spec.tileSum
  refine Finset.sum_congr rfl fun b' _ => ?_
  unfold Spec.ext
  rw [dif_pos (show 4 * n + b'.val < 128 from (rowOf ⟨n, h⟩ b').isLt)]
  rfl

/-- The radiation tile sum of point `n`, likewise. -/
theorem tileRad_eq (c : Dev nD) (n : ℕ) (h : n < cfg0.N) :
    tileRad m c n h cell = Spec.tileSum (Spec.radRow (m ((c.tc : Thread nD τ).loc main_arg2)) (m ((c.tc : Thread nD τ).loc main_arg3))) n := by
  unfold tileRad
  rw [pay9_cell (iblk m c 2 ⟨n, h⟩) (iblk m c 3 ⟨n, h⟩)]
  rw [Finset.sum_congr rfl fun n' _ => Finset.sum_congr rfl fun s _ => Finset.sum_congr rfl fun u _ =>
    Finset.sum_congr rfl fun b' _ =>
      Spec.radPen_tile (rowOf ⟨n, h⟩) (blk2_apply m c ⟨n, h⟩) (blk3_apply m c ⟨n, h⟩) b' u n' s]
  rw [sum_rot4 (fun (b' : Fin 4) (u : Fin 4) (n' : Fin 64) (s : Fin 408) =>
    Spec.radPen (m ((c.tc : Thread nD τ).loc main_arg2)) (m ((c.tc : Thread nD τ).loc main_arg3)) (rowOf ⟨n, h⟩ b') u n' s)]
  unfold Spec.tileSum
  refine Finset.sum_congr rfl fun b' _ => ?_
  unfold Spec.ext
  rw [dif_pos (show 4 * n + b'.val < 128 from (rowOf ⟨n, h⟩ b').isLt)]
  rfl

end Cert.KernelIdeal.Tile

end
-- ==== Proof.KernelValue.lean ====
import proofs.«123063_j88373247082702_2_alg».proof.Proof.TileValue
import Idealize.ShloMosaic.Lib.StableHlo.Run

/-!
# The kernel's result is the loss

Each core's last point writes its partial total into every entry of its own [8, 128] block of the [16, 128]
output: rows 0–7 hold the first half's partial total, rows 8–15 the second half's. The host then adds entry (0, 0)
and entry (8, 0). By the specification's joining law that sum is the loss.
-/

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Fold Cert.KernelIdeal.Tile

variable (m : (ℓ : Loc nD τ sig) → Buf (Elt Ideal) ℓ) (ρ : Dev nD → PrngReg)

/-- The loss of the argument arrays as core `c` holds them, and a half's partial total. -/
abbrev loss (c : Dev nD) : EReal := Spec.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
abbrev part (c : Dev nD) (q : ℕ) : EReal := Spec.coreTotal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) q

/-- A half's 16 tile sums add up to the half's sum of row quantities. -/
theorem sum_tiles (E : (n : ℕ) → n < cfg0.N → S1x1.Idx → EReal) (ρ' : Fin 128 → EReal)
    (hE : ∀ n h, E n h cell = Spec.tileSum ρ' n) (q : ℕ) (ht : 16 * q + 15 < cfg0.N) :
    ∑ s ∈ Finset.range 16, (if h : 16 * q + s < cfg0.N then E _ h cell else 0) = Spec.coreSum ρ' q := by
  unfold Spec.coreSum
  refine Finset.sum_congr rfl fun s hs => ?_
  rw [dif_pos (by have := Finset.mem_range.mp hs; omega), hE]

/-- The block a core's last point leaves holds the core's partial total at every entry. -/
theorem out_core (c : Dev nD) (n : ℕ) (hn : n < cfg0.N) (h15 : n % 16 = 15) (y : S8x128.Idx) :
    (outsAt0 m c n hn).1 y = part m c (n / 16) := by
  obtain ⟨q, rfl⟩ : ∃ q, n = 16 * q + 15 := ⟨n / 16, by omega⟩
  rw [out_last_apply m c q hn y, sum_tiles (tileErr m c) _ (tileErr_eq m c) q hn,
    sum_tiles (tileAtt m c) _ (tileAtt_eq m c) q hn, sum_tiles (tileRad m c) _ (tileRad_eq m c) q hn]
  have hq : (16 * q + 15) / 16 = q := by omega
  rw [hq]
  rfl

/-- The output array the region leaves: the first half's partial total in rows 0–7, the second's in rows 8–15. -/
abbrev outArr (c : Dev nD) : Buf (Elt Ideal) ((c : Thread nD τ).loc main_v0) := fun i => part m c ((i 0).val / 8)

/-- The output window's block index at point `t` is the core, `t / 16`, along the rows and 0 along the lanes. -/
theorem idx_out : ∀ t : Fin cfg0.N, win0_7.index t 0 = t.val / 16 ∧ win0_7.index t 1 = 0 :=
  (by decide +kernel : ∀ t : Fin grid0.N, _)

/-- What a core's last point writes back is its block of that array. -/
theorem flushed_eq (c : Dev nD) (t : Fin cfg0.N) (hf : (cfg0.win 7).flush t = true) :
    (dats m 0 c).flushed 7 t = ((cfg0.win 7).blk t).view.read (Elt Ideal) (outArr m c) := by
  have h15 : t.val % 16 = 15 := (flush0_7 t).mp hf
  funext y
  show (cfg0.win 7).cut (grid0.coords t) ((dats m 0 c).after 7 t) y = _
  rw [after0_7, View.read_apply]
  show (outsAt0 m c t.val t.isLt).1 _ = part m c (((((cfg0.win 7).blk t).view.emb y) 0).val / 8)
  rw [out_core m c t.val t.isLt h15]
  have he : ((((cfg0.win 7).blk t).view.emb y) 0).val = win0_7.index t 0 * 8 + 1 * (y 0).val := rfl
  rw [he, (idx_out t).1]
  have hy : (y 0).val < 8 := (y 0).isLt
  congr 1; omega

/-- The point that writes row `r`'s block back: the last point of core `r / 8`. -/
def lastOf (r : Fin 16) : Fin cfg0.N :=
  ⟨16 * (r.val / 8) + 15, by have := r.isLt; have hN : cfg0.N = 32 := N_0; omega⟩

/-- The two write-backs cover the output array, so it ends holding `outArr`. -/
theorem final (c : Dev nD) : (dats m 0 c).arrAt 7 cfg0.N = outArr m c :=
  (dats m 0 c).arrAt_eq_of_cover 7 (outArr m c) (flushed_eq m c) fun i => by
    have hi0 : (i 0).val < 16 := (i 0).isLt
    have hi1 : (i 1).val < 128 := (i 1).isLt
    refine ⟨lastOf (i 0), (flush0_7 _).mpr (by show (16 * ((i 0).val / 8) + 15) % 16 = 15; omega), ?_⟩
    show i ∈ ((View.whole main_v0).slice (win0_7.rect (lastOf (i 0)))).set
    rw [View.set_slice_whole, Rect.mem_set_unit]
    intro a
    match a with
    | ⟨0, _⟩ =>
      show win0_7.index (lastOf (i 0)) 0 * 8 ≤ (i 0).val ∧ (i 0).val < win0_7.index (lastOf (i 0)) 0 * 8 + 8
      rw [(idx_out (lastOf (i 0))).1]
      show (16 * ((i 0).val / 8) + 15) / 16 * 8 ≤ (i 0).val ∧ (i 0).val < (16 * ((i 0).val / 8) + 15) / 16 * 8 + 8
      omega
    | ⟨1, _⟩ =>
      show win0_7.index (lastOf (i 0)) 1 * 128 ≤ (i 1).val ∧ (i 1).val < win0_7.index (lastOf (i 0)) 1 * 128 + 128
      rw [(idx_out (lastOf (i 0))).2]
      omega

/-- A [1, 1] vector has one cell. -/
theorem cell_unique (k : S1x1.Idx) : k = cell := by
  funext d
  match d with
  | ⟨0, _⟩ => exact Fin.ext (by have h : (k 0).val < 1 := (k 0).isLt; show (k 0).val = 0; omega)
  | ⟨1, _⟩ => exact Fin.ext (by have h : (k 1).val < 1 := (k 1).isLt; show (k 1).val = 0; omega)

/-- The host's tail — entry (0, 0) plus entry (8, 0) of the output array — is the loss. -/
theorem tail_eq (c : Dev nD) :
    Pipeline.afterTail₀ cfgs (dats m) 0 (V0 m) [hostOps1] c main_v5 = fun _ => loss m c := by
  unfold Pipeline.afterTail₀
  show StableHlo.after hostOps1 _ (Proc.devRef .tc main_v5) = _
  after_results
  have hW : Pipeline.withArrays (cfgs 0).spec c (V0 m c) (fun w => (dats m 0 c).arrAt w (cfgs 0).N)
      (Proc.devRef .tc main_v0) = outArr m c :=
    (Pipeline.withArrays_arr spec0 launch0.win.arr_inj c _ _ 7).trans (final m c)
  rw [hW]
  funext i
  show (shapeCast S_ (extractStridedSlice S1x1 ![0, 0] (outArr m c : S16x128.Idx → EReal) slices_S16x128_S1x1_0_0) shapeCasts_S1x1_S_ i : EReal)
      + (shapeCast S_ (extractStridedSlice S1x1 ![8, 0] (outArr m c : S16x128.Idx → EReal) slices_S16x128_S1x1_8_0) shapeCasts_S1x1_S_ i : EReal)
      = loss m c
  unfold shapeCast
  rw [cell_unique (Shape.reshapeEquiv shapeCasts_S1x1_S_ i)]
  have e0 : (outArr m c (ix2 (0 : Fin 16) (0 : Fin 128)) : EReal) = part m c 0 :=
    congrArg (part m c) (by decide : (0 : Fin 16).val / 8 = 0)
  have e1 : (outArr m c (ix2 (8 : Fin 16) (0 : Fin 128)) : EReal) = part m c 1 :=
    congrArg (part m c) (by decide : (8 : Fin 16).val / 8 = 1)
  exact (congrArg₂ (fun a b : EReal => a + b)
    ((extractStridedSlice_apply ![0, 0] (outArr m c : S16x128.Idx → EReal) slices_S16x128_S1x1_0_0 cell
      (ix2 (0 : Fin 16) (0 : Fin 128)) (fun a => match a with | ⟨0, _⟩ => rfl | ⟨1, _⟩ => rfl)).trans e0)
    ((extractStridedSlice_apply ![8, 0] (outArr m c : S16x128.Idx → EReal) slices_S16x128_S1x1_8_0 cell
      (ix2 (8 : Fin 16) (0 : Fin 128)) (fun a => match a with | ⟨0, _⟩ => rfl | ⟨1, _⟩ => rfl)).trans e1)).trans
    (Spec.coreTotal_add (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))

/-- The kernel's run: every weakly fair execution terminates with the result at the loss of the argument arrays, and
    the argument arrays as launched. -/
theorem run : θ_run defs (onTc (τ := τ) (main (F := Ideal))) ⟨m, fun _ => 0, ρ⟩ (fun r => ∀ c : Dev nD,
      r.2.mem ((c.tc : Thread nD τ).loc main_v5) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Whole

end
-- ==== Proof.RefValue.lean ====
import proofs.«123063_j88373247082702_2_alg».proof.Proof.Gen.ReferenceIdeal.Read
import proofs.«123063_j88373247082702_2_alg».proof.Proof.Spec
import proofs.«123063_j88373247082702_2_alg».proof.Proof.LibSumIdx

/-!
# The reference's result is the loss

The reference computes the three entry-wise quantities over the whole arrays, sums each over every index, divides
the two regularisers' sums by their element counts, and combines. A sum over every index of a rank-3 or rank-4
array is the iterated sum over its coordinates, batch row outermost; inside a row the order of the remaining axes
does not matter, so each total sum is the sum of the specification's row quantities.
-/

noncomputable section

open scoped BigOperators
open Idealize.ShloMosaic Idealize.ShloMosaic.ValueIdx

namespace Cert.ReferenceIdeal.Whole

open Cert.ReferenceIdeal Cert.ReferenceIdeal.Read Cert.Lib

variable (x0 x1 : (⟨S128x4x408, .f32⟩ : BufTy).Contents (Elt Ideal))
  (x2 x3 x4 x5 : (⟨S128x4x64x408, .f32⟩ : BufTy).Contents (Elt Ideal)) (x6 : (⟨S408, .f32⟩ : BufTy).Contents (Elt Ideal))

/-! ## The three reduced operands, at an entry -/

theorem att_index (b : Fin 128) (u : Fin 4) (n : Fin 64) (s : Fin 408) :
    idx_main_v0 (idx_main_v2 (ix4 b u n s)) = ix3 b u s :=
  funext fun a => match a with | ⟨0, _⟩ => rfl | ⟨1, _⟩ => rfl | ⟨2, _⟩ => rfl

theorem wts_index (b : Fin 128) (u : Fin 4) (n : Fin 64) (s : Fin 408) :
    idx_main_v17 (idx_main_v18 (ix4 b u n s)) = ix1 s :=
  funext fun a => match a with | ⟨0, _⟩ => rfl

/-- The weighted squared error, as the reference computes it, at an entry. -/
theorem err_entry (b : Fin 128) (u : Fin 4) (n : Fin 64) (s : Fin 408) :
    val_main_v19 (F := Ideal) x0 x1 x2 x3 x4 x5 x6 (ix4 b u n s) = Spec.err x0 x1 x2 x3 x4 x5 x6 b u n s := by
  simp only [val_main_v19_apply, val_main_v16_apply, val_main_v13_apply, val_main_v12_apply, val_main_v6_apply,
    val_main_v3_apply, val_main_v2_apply, val_main_v0_apply, val_main_v5_apply, val_main_v4_apply, val_main_v1_apply,
    val_main_v15_apply, val_main_v14_apply, val_main_v11_apply, val_main_v8_apply, val_main_v7_apply,
    val_main_v10_apply, val_main_v9_apply, val_main_v18_apply, val_main_v17_apply]
  show (((x0 (idx_main_v0 (idx_main_v2 (ix4 b u n s))) * x2 (ix4 b u n s)
        - x1 (idx_main_v0 (idx_main_v2 (ix4 b u n s))) * x3 (ix4 b u n s)) - x4 (ix4 b u n s))
      * ((x0 (idx_main_v0 (idx_main_v2 (ix4 b u n s))) * x2 (ix4 b u n s)
        - x1 (idx_main_v0 (idx_main_v2 (ix4 b u n s))) * x3 (ix4 b u n s)) - x4 (ix4 b u n s))
    + ((x0 (idx_main_v0 (idx_main_v2 (ix4 b u n s))) * x3 (ix4 b u n s)
        + x1 (idx_main_v0 (idx_main_v2 (ix4 b u n s))) * x2 (ix4 b u n s)) - x5 (ix4 b u n s))
      * ((x0 (idx_main_v0 (idx_main_v2 (ix4 b u n s))) * x3 (ix4 b u n s)
        + x1 (idx_main_v0 (idx_main_v2 (ix4 b u n s))) * x2 (ix4 b u n s)) - x5 (ix4 b u n s)))
    * x6 (idx_main_v17 (idx_main_v18 (ix4 b u n s))) = _
  rw [att_index, wts_index]
  rfl

/-- The attenuation regulariser's term at an entry. -/
theorem att_entry (b : Fin 128) (u : Fin 4) (s : Fin 408) :
    val_main_v32 (F := Ideal) x0 x1 (ix3 b u s) = Spec.attPen x0 x1 b u s := rfl

/-- The radiation regulariser's term at an entry. -/
theorem rad_entry (b : Fin 128) (u : Fin 4) (n : Fin 64) (s : Fin 408) :
    val_main_v38 (F := Ideal) x2 x3 (ix4 b u n s) = Spec.radPen x2 x3 b u n s := rfl

/-! ## The three total sums are sums of row quantities -/

theorem err_sum : ∑ j : S128x4x64x408.Idx, val_main_v19 (F := Ideal) x0 x1 x2 x3 x4 x5 x6 j
    = ∑ b : Fin 128, Spec.errRow x0 x1 x2 x3 x4 x5 x6 b := by
  rw [sum_idx4]
  refine Finset.sum_congr rfl fun b _ => ?_
  rw [Finset.sum_congr rfl fun u _ => Finset.sum_congr rfl fun n _ => Finset.sum_congr rfl fun s _ =>
    err_entry x0 x1 x2 x3 x4 x5 x6 b u n s]
  exact sum_rot3 (fun (u : Fin 4) (n : Fin 64) (s : Fin 408) => Spec.err x0 x1 x2 x3 x4 x5 x6 b u n s)

theorem att_sum : ∑ j : S128x4x408.Idx, val_main_v32 (F := Ideal) x0 x1 j = ∑ b : Fin 128, Spec.attRow x0 x1 b := by
  rw [sum_idx3]
  exact Finset.sum_congr rfl fun b _ => Finset.sum_congr rfl fun u _ => Finset.sum_congr rfl fun s _ =>
    att_entry x0 x1 b u s

theorem rad_sum : ∑ j : S128x4x64x408.Idx, val_main_v38 (F := Ideal) x2 x3 j = ∑ b : Fin 128, Spec.radRow x2 x3 b := by
  rw [sum_idx4]
  refine Finset.sum_congr rfl fun b _ => ?_
  rw [Finset.sum_congr rfl fun u _ => Finset.sum_congr rfl fun n _ => Finset.sum_congr rfl fun s _ =>
    rad_entry x2 x3 b u n s]
  exact sum_rot3 (fun (u : Fin 4) (n : Fin 64) (s : Fin 408) => Spec.radPen x2 x3 b u n s)

/-! ## The result -/

/-- The reference's result is the loss of its arguments. -/
theorem result_eq : val_main_v43 (F := Ideal) x0 x1 x2 x3 x4 x5 x6 = fun _ => Spec.total x0 x1 x2 x3 x4 x5 x6 := by
  funext i
  rw [val_main_v43_apply, val_main_v20_apply, val_main_v42_apply, val_main_v41_apply, val_main_v34_apply,
    val_main_v40_apply, val_main_v33_apply, val_main_v39_apply, err_sum, att_sum, rad_sum]
  rfl

end Cert.ReferenceIdeal.Whole

end
-- ==== Proof.lean ====
/-
  The loss of a ray-traced channel predictor, computed two ways.

  Both programs take an attenuation `a` over (batch, user, subcarrier), a radiation `p` and a target `t` over
  (batch, user, antenna, subcarrier) — each as a real and an imaginary array — and subcarrier weights `w`, and return

      Σ |a·p − t|²·w  +  c · ( Σ max(|a| − 1, 0)² / N_att  +  Σ max(|p| − 10, 0)² / N_rad ),

  the squared error taken on real and imaginary parts separately, `|·|` the complex magnitude, `N_att` and `N_rad`
  the numbers of entries of `a` and `p`. The reference computes the three sums over the whole arrays. The kernel
  splits the 128 batch rows into two halves of 16 tiles of 4 rows, one half per core; a core adds its tiles' three
  sums into three one-cell accumulators, and at its last tile writes `r + c·(a / N_att + d / N_rad)` of its
  accumulators into its own block of a [16, 128] output; the host adds one entry of each block.

  Over the extended reals, with every float operation exact:
  * a tile's nested one-axis sums, in whatever order of axes, are the sum of its four rows' sums (Proof/TileValue.lean);
  * the accumulators after a core's 16 tiles hold the sums over the core's 64 rows (Proof/Fold.lean, over
    Proof/Pieces.lean), so each block holds the core's partial total (Proof/KernelValue.lean);
  * the two partial totals add up to the loss: sums regroup freely, and the weight and the reciprocal counts
    distribute over the two halves because the regularisers are sums of squares, hence nonnegative — no finiteness
    of the inputs is needed (Proof/Spec.lean, Proof/ScalarLaw.lean, Proof/Consts.lean);
  * the reference's total sums are the same sums of row sums (Proof/RefValue.lean).
  The idealized kernel is the kernel's own text read over the extended reals (no operation was rewritten), so `preserves`
  is trivial; the three frames are the generated ones.
-/
import proofs.«123063_j88373247082702_2_alg».proof.Defs
import proofs.«123063_j88373247082702_2_alg».proof.Proof.Gen.Kernel
import proofs.«123063_j88373247082702_2_alg».proof.Proof.Gen.Kernel.Frame
import proofs.«123063_j88373247082702_2_alg».proof.Proof.Gen.KernelIdeal
import proofs.«123063_j88373247082702_2_alg».proof.Proof.Gen.KernelIdeal.Frame
import proofs.«123063_j88373247082702_2_alg».proof.Proof.Gen.ReferenceIdeal
import proofs.«123063_j88373247082702_2_alg».proof.Proof.Gen.Pre_finite_inputs
import proofs.«123063_j88373247082702_2_alg».proof.Proof.Gen.ReferenceIdeal.Run
import proofs.«123063_j88373247082702_2_alg».proof.Proof.Gen.ReferenceIdeal.Read
import proofs.«123063_j88373247082702_2_alg».proof.Proof.KernelValue
import proofs.«123063_j88373247082702_2_alg».proof.Proof.RefValue

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals: nothing to state. -/
theorem preserves : Cert.preserves_Kernel_KernelIdeal := trivial

/-- Over the extended reals both programs end at the loss of the argument arrays. -/
theorem algebraic : Cert.algebraic_KernelIdeal_ReferenceIdeal := by
  intro m ρ m' ρ' _ hagree
  refine ⟨fun c _ => Cert.KernelIdeal.Whole.loss m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.Whole.result_eq, (hagree c).1, (hagree c).2.1,
    (hagree c).2.2.1, (hagree c).2.2.2.1, (hagree c).2.2.2.2.1, (hagree c).2.2.2.2.2.1, (hagree c).2.2.2.2.2.2.1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
